-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x16 : Shape := ⟨2, ![128, 16]⟩
abbrev S16 : Shape := ⟨1, ![16]⟩
abbrev S16x2 : Shape := ⟨2, ![16, 2]⟩
abbrev S2 : Shape := ⟨1, ![2]⟩
abbrev S2x3200000 : Shape := ⟨2, ![2, 3200000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg4 : FVec F S2 .f32) (main_v13 : IVec S_ 1) (main_v16 : IVec S16x2 1) : IVec S_ 1 :=
  let main_c_5 : IVec S_ 1 := constantI S_ 1 1#1
  let main_v17 : IVec S_ 1 := (fun x v => Host.reduce IntOp.andi x v reducesTo_S16x2_S_d0_1 h_S_) main_v16 main_c_5
  let main_v18 : IVec S_ 1 := andi main_v13 main_v17
  let main_v19 : FVec F S2 .f32 := Host.absf main_arg4
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S100000x128 .f32) (main_arg1 : FVec F S128x16 .f32) (main_arg2 : FVec F S16 .f32) (main_arg3 : FVec F S16x2 .f32) (main_arg4 : FVec F S2 .f32) (main_arg5 : IVec S2x3200000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg1
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x2 .f32 := Host.absf main_arg3
  let main_cst_4 : FVec F S_ .f32 := constant S_ .f32 0x7F800000#32
  let main_v15 : FVec F S16x2 .f32 := broadcastInDim S16x2 ![] bcast_S_S16x2 main_cst_4
  let main_v16 : IVec S16x2 1 := cmpf .olt main_v14 main_v15
  fn_part1 (F := F) main_arg4 main_v13 main_v16
-- ==== Kernel.lean ====
abbrev S100000x128 : Shape := ⟨2, ![100000, 128]⟩
abbrev S128x16 : Shape := ⟨2, ![128, 16]⟩
abbrev S16 : Shape := ⟨1, ![16]⟩
abbrev S16x2 : Shape := ⟨2, ![16, 2]⟩
abbrev S2 : Shape := ⟨1, ![2]⟩
abbrev S2x3200000 : Shape := ⟨2, ![2, 3200000]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S10000x128 : Shape := ⟨2, ![10000, 128]⟩
abbrev S10000x16 : Shape := ⟨2, ![10000, 16]⟩
abbrev S3300000x16 : Shape := ⟨2, ![3300000, 16]⟩
abbrev S1x16 : Shape := ⟨2, ![1, 16]⟩
abbrev S100000x2 : Shape := ⟨2, ![100000, 2]⟩
abbrev S10000x2 : Shape := ⟨2, ![10000, 2]⟩
abbrev S3300000x2 : Shape := ⟨2, ![3300000, 2]⟩
abbrev S1x2 : Shape := ⟨2, ![1, 2]⟩
abbrev S10000 : Shape := ⟨1, ![10000]⟩
abbrev S10000x1 : Shape := ⟨2, ![10000, 1]⟩

abbrev nBuf : Space → Nat
  | .hbm => 82
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S128x16, .f32⟩
  | .hbm, ⟨2, _⟩ => ⟨S16, .f32⟩
  | .hbm, ⟨3, _⟩ => ⟨S16x2, .f32⟩
  | .hbm, ⟨4, _⟩ => ⟨S2, .f32⟩
  | .hbm, ⟨5, _⟩ => ⟨S2x3200000, .i32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000, .i32⟩
  | .hbm, ⟨11, _⟩ => ⟨S3300000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S3300000, .i32⟩
  | .hbm, ⟨28, _⟩ => ⟨S3300000, .i1⟩
  | .hbm, ⟨29, _⟩ => ⟨S_, .i32⟩
  | .hbm, ⟨30, _⟩ => ⟨S3300000, .i32⟩
  | .hbm, ⟨31, _⟩ => ⟨S3300000, .i32⟩
  | .hbm, ⟨32, _⟩ => ⟨S3300000, .i32⟩
  | .hbm, ⟨33, _⟩ => ⟨S3300000x1, .i32⟩
  | .hbm, ⟨34, _⟩ => ⟨S3300000, .f32⟩
  | .hbm, ⟨35, _⟩ => ⟨S_, .i32⟩
  | .hbm, ⟨36, _⟩ => ⟨S3300000, .i32⟩
  | .hbm, ⟨37, _⟩ => ⟨S3300000, .i1⟩
  | .hbm, ⟨38, _⟩ => ⟨S_, .i32⟩
  | .hbm, ⟨39, _⟩ => ⟨S3300000, .i32⟩
  | .hbm, ⟨40, _⟩ => ⟨S3300000, .i32⟩
  | .hbm, ⟨41, _⟩ => ⟨S3300000, .i32⟩
  | .hbm, ⟨42, _⟩ => ⟨S3300000x1, .i32⟩
  | .hbm, ⟨43, _⟩ => ⟨S3300000, .f32⟩
  | .hbm, ⟨44, _⟩ => ⟨S3300000, .f32⟩
  | .hbm, ⟨45, _⟩ => ⟨S100000x16, .f32⟩
  | .hbm, ⟨46, _⟩ => ⟨S_, .i32⟩
  | .hbm, ⟨47, _⟩ => ⟨S3300000, .i32⟩
  | .hbm, ⟨48, _⟩ => ⟨S3300000, .i1⟩
  | .hbm, ⟨49, _⟩ => ⟨S_, .i32⟩
  | .hbm, ⟨50, _⟩ => ⟨S3300000, .i32⟩
  | .hbm, ⟨51, _⟩ => ⟨S3300000, .i32⟩
  | .hbm, ⟨52, _⟩ => ⟨S3300000, .i32⟩
  | .hbm, ⟨53, _⟩ => ⟨S3300000x1, .i32⟩
  | .hbm, ⟨54, _⟩ => ⟨S3300000x16, .f32⟩
  | .hbm, ⟨55, _⟩ => ⟨S3300000x1, .f32⟩
  | .hbm, ⟨56, _⟩ => ⟨S3300000x16, .f32⟩
  | .hbm, ⟨57, _⟩ => ⟨S3300000x16, .f32⟩
  | .hbm, ⟨58, _⟩ => ⟨S_, .f32⟩
  | .hbm, ⟨59, _⟩ => ⟨S100000x16, .f32⟩
  | .hbm, ⟨60, _⟩ => ⟨S3300000x1, .i32⟩
  | .hbm, ⟨61, _⟩ => ⟨S100000x16, .f32⟩
  | .hbm, ⟨62, _⟩ => ⟨S1x16, .f32⟩
  | .hbm, ⟨63, _⟩ => ⟨S100000x2, .f32⟩
  | .hbm, ⟨64, _⟩ => ⟨S_, .i32⟩
  | .hbm, ⟨65, _⟩ => ⟨S3300000, .i32⟩
  | .hbm, ⟨66, _⟩ => ⟨S3300000, .i1⟩
  | .hbm, ⟨67, _⟩ => ⟨S_, .i32⟩
  | .hbm, ⟨68, _⟩ => ⟨S3300000, .i32⟩
  | .hbm, ⟨69, _⟩ => ⟨S3300000, .i32⟩
  | .hbm, ⟨70, _⟩ => ⟨S3300000, .i32⟩
  | .hbm, ⟨71, _⟩ => ⟨S3300000x1, .i32⟩
  | .hbm, ⟨72, _⟩ => ⟨S3300000x2, .f32⟩
  | .hbm, ⟨73, _⟩ => ⟨S3300000x1, .f32⟩
  | .hbm, ⟨74, _⟩ => ⟨S3300000x2, .f32⟩
  | .hbm, ⟨75, _⟩ => ⟨S3300000x2, .f32⟩
  | .hbm, ⟨76, _⟩ => ⟨S_, .f32⟩
  | .hbm, ⟨77, _⟩ => ⟨S100000x2, .f32⟩
  | .hbm, ⟨78, _⟩ => ⟨S3300000x1, .i32⟩
  | .hbm, ⟨79, _⟩ => ⟨S100000x2, .f32⟩
  | .hbm, ⟨80, _⟩ => ⟨S1x2, .f32⟩
  | .hbm, ⟨81, _⟩ => ⟨S100000x2, .f32⟩
  | .local _ .vmem, ⟨0, _⟩ => ⟨S10000x128, .f32⟩
  | .local _ .vmem, ⟨1, _⟩ => ⟨S10000x128, .f32⟩
  | .local _ .vmem, ⟨2, _⟩ => ⟨S128x16, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S1x16, .f32⟩
  | .local _ .vmem, ⟨8, _⟩ => ⟨S16x2, .f32⟩
  | .local _ .vmem, ⟨9, _⟩ => ⟨S10000x2, .f32⟩
  | .local _ .vmem, ⟨10, _⟩ => ⟨S10000x2, .f32⟩
  | .local _ .vmem, ⟨11, _⟩ => ⟨S10000x2, .f32⟩
  | .local _ .vmem, ⟨12, _⟩ => ⟨S10000x2, .f32⟩
  | .local _ .vmem, ⟨13, _⟩ => ⟨S1x2, .f32⟩
  | .local _ .vmem, ⟨14, _⟩ => ⟨S10000x2, .f32⟩
  | .local _ .vmem, ⟨15, _⟩ => ⟨S10000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_c_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_c_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_c_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_c_9 : Ref sig .tc := ⟨.hbm, 64, rfl⟩
abbrev main_v46 : Ref sig .tc := ⟨.hbm, 65, rfl⟩
abbrev main_v47 : Ref sig .tc := ⟨.hbm, 66, rfl⟩
abbrev main_c_10 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_11 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x2 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x2 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x2 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x2_S16x2_0_0 : ∀ a, (![0, 0] : Fin 2 → Nat) a + S16x2.size a ≤ S16x2.size a
  h_S16x2 : 0 < S16x2.numel
  inb_S10000x2_S10000x2_0_0 : ∀ a, (![0, 0] : Fin 2 → Nat) a + S10000x2.size a ≤ S10000x2.size a
  h_S10000x2 : 0 < S10000x2.numel
  bcast_S3300000x1_S3300000x2_0_1 : S3300000x1.BroadcastsInDim S3300000x2 (![0, 1] : Fin 2 → Fin S3300000x2.rank)
  bcast_S_S100000x2 : S_.BroadcastsInDim S100000x2 (![] : Fin 0 → Fin S100000x2.rank)
  shapeCasts_S2_S1x2 : S2.ShapeCasts S1x2
  shapeCasts_S10000x2_S10000x2 : S10000x2.ShapeCasts S10000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S10000x2 : S1x2.Broadcasts S10000x2
  reduces_S10000x2_S10000 : S10000x2.Reduces [1] S10000
  shapeCasts_S10000_S10000x1 : S10000.ShapeCasts S10000x1
  broadcasts_S10000x1_S10000x2 : S10000x1.Broadcasts S10000x2
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x128_S128x16_S10000x16_1_0_0_1_n_n_wf : DotDims.WF S10000x128 S128x16 S10000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S10000x16_S16x2_S10000x2_1_0_0_1_n_n_wf : DotDims.WF S10000x16 S16x2 S10000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S100000x16.size a
  hwx0_2 : ∀ i : grid0.Coords, EltTy.bits .f32 = 32 ∨ (Rect.block (s := S100000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x2.size a ≤ S16x2.size a
  hwx1_2 : ∀ i : grid1.Coords, EltTy.bits .f32 = 32 ∨ (Rect.block (s := S16x2) S16x2.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x2.size a ≤ S100000x2.size a
  hwx1_3 : ∀ i : grid1.Coords, EltTy.bits .f32 = 32 ∨ (Rect.block (s := S100000x2) S10000x2.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x2.size a ≤ S100000x2.size a
  hwx2_0 : ∀ i : grid2.Coords, EltTy.bits .f32 = 32 ∨ (Rect.block (s := S100000x2) S10000x2.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x2.size a ≤ S1x2.size a
  hwx2_1 : ∀ i : grid2.Coords, EltTy.bits .f32 = 32 ∨ (Rect.block (s := S1x2) S1x2.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x2.size a ≤ S100000x2.size a
  hwx2_2 : ∀ i : grid2.Coords, EltTy.bits .f32 = 32 ∨ (Rect.block (s := S100000x2) S10000x2.size (cc2_transform_2 i) (hinb2_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S10000x16_S16x2_S10000x2_1_0_0_1_n_n : DotDims S10000x16 S16x2 S10000x2 where
  lhsContracting := [1]
  rhsContracting := [0]
  lhsNonContracting := [0]
  rhsNonContracting := [1]
  lhsBatch := []
  rhsBatch := []
  wf := dot_S10000x16_S16x2_S10000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S16x2.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S10000x2.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S10000x2.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S10000x2.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S128x16 : Shape := ⟨2, ![128, 16]⟩
abbrev S16 : Shape := ⟨1, ![16]⟩
abbrev S16x2 : Shape := ⟨2, ![16, 2]⟩
abbrev S2 : Shape := ⟨1, ![2]⟩
abbrev S2x3200000 : Shape := ⟨2, ![2, 3200000]⟩
abbrev S100000x16 : Shape := ⟨2, ![100000, 16]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x2 : Shape := ⟨2, ![100000, 2]⟩
abbrev S3300000x2 : Shape := ⟨2, ![3300000, 2]⟩
abbrev S1x2 : Shape := ⟨2, ![1, 2]⟩
abbrev S100000x1 : Shape := ⟨2, ![100000, 1]⟩

abbrev nBuf : Space → Nat
  | .hbm => 144
  | .vmem => 0
  | .smem => 0
  | _ => 0

abbrev hbmTy0_0 (i : Nat) : BufTy := match i % 128 with
  | 0 => ⟨S100000x128, .f32⟩
  | 1 => ⟨S128x16, .f32⟩
  | 2 => ⟨S16, .f32⟩
  | 3 => ⟨S16x2, .f32⟩
  | 4 => ⟨S2, .f32⟩
  | 5 => ⟨S2x3200000, .i32⟩
  | 6 => ⟨S100000x16, .f32⟩
  | 7 => ⟨S1x3200000, .i32⟩
  | 8 => ⟨S3200000, .i32⟩
  | 9 => ⟨S1x3200000, .i32⟩
  | 10 => ⟨S3200000, .i32⟩
  | 11 => ⟨S100000, .i32⟩
  | 12 => ⟨S3300000, .i32⟩
  | 13 => ⟨S3300000, .i32⟩
  | 14 => ⟨S_, .f32⟩
  | 15 => ⟨S3300000, .f32⟩
  | 16 => ⟨S_, .f32⟩
  | 17 => ⟨S100000, .f32⟩
  | 18 => ⟨S3300000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S3300000, .i32⟩
  | 30 => ⟨S3300000, .i1⟩
  | 31 => ⟨S_, .i32⟩
  | 32 => ⟨S3300000, .i32⟩
  | 33 => ⟨S3300000, .i32⟩
  | 34 => ⟨S3300000, .i32⟩
  | 35 => ⟨S3300000x1, .i32⟩
  | 36 => ⟨S3300000, .f32⟩
  | 37 => ⟨S_, .i32⟩
  | 38 => ⟨S3300000, .i32⟩
  | 39 => ⟨S3300000, .i1⟩
  | 40 => ⟨S_, .i32⟩
  | 41 => ⟨S3300000, .i32⟩
  | 42 => ⟨S3300000, .i32⟩
  | 43 => ⟨S3300000, .i32⟩
  | 44 => ⟨S3300000x1, .i32⟩
  | 45 => ⟨S3300000, .f32⟩
  | 46 => ⟨S3300000, .f32⟩
  | 47 => ⟨S_, .i32⟩
  | 48 => ⟨S3300000, .i32⟩
  | 49 => ⟨S3300000, .i1⟩
  | 50 => ⟨S_, .i32⟩
  | 51 => ⟨S3300000, .i32⟩
  | 52 => ⟨S3300000, .i32⟩
  | 53 => ⟨S3300000, .i32⟩
  | 54 => ⟨S3300000x1, .i32⟩
  | 55 => ⟨S3300000x16, .f32⟩
  | 56 => ⟨S3300000x1, .f32⟩
  | 57 => ⟨S3300000x16, .f32⟩
  | 58 => ⟨S3300000x16, .f32⟩
  | 59 => ⟨S_, .f32⟩
  | 60 => ⟨S100000x16, .f32⟩
  | 61 => ⟨S3300000x1, .i32⟩
  | 62 => ⟨S100000x16, .f32⟩
  | 63 => ⟨S1x16, .f32⟩
  | 64 => ⟨S100000x16, .f32⟩
  | 65 => ⟨S100000x16, .f32⟩
  | 66 => ⟨S_, .f32⟩
  | 67 => ⟨S100000x16, .f32⟩
  | 68 => ⟨S100000x16, .f32⟩
  | 69 => ⟨S100000x2, .f32⟩
  | 70 => ⟨S1x3200000, .i32⟩
  | 71 => ⟨S3200000, .i32⟩
  | 72 => ⟨S1x3200000, .i32⟩
  | 73 => ⟨S3200000, .i32⟩
  | 74 => ⟨S100000, .i32⟩
  | 75 => ⟨S3300000, .i32⟩
  | 76 => ⟨S3300000, .i32⟩
  | 77 => ⟨S_, .f32⟩
  | 78 => ⟨S3300000, .f32⟩
  | 79 => ⟨S_, .f32⟩
  | 80 => ⟨S100000, .f32⟩
  | 81 => ⟨S3300000x1, .i32⟩
  | 82 => ⟨S100000, .f32⟩
  | 83 => ⟨S_, .f32⟩
  | 84 => ⟨S100000, .f32⟩
  | 85 => ⟨S100000, .i1⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S3300000, .i32⟩
  | 93 => ⟨S3300000, .i1⟩
  | 94 => ⟨S_, .i32⟩
  | 95 => ⟨S3300000, .i32⟩
  | 96 => ⟨S3300000, .i32⟩
  | 97 => ⟨S3300000, .i32⟩
  | 98 => ⟨S3300000x1, .i32⟩
  | 99 => ⟨S3300000, .f32⟩
  | 100 => ⟨S_, .i32⟩
  | 101 => ⟨S3300000, .i32⟩
  | 102 => ⟨S3300000, .i1⟩
  | 103 => ⟨S_, .i32⟩
  | 104 => ⟨S3300000, .i32⟩
  | 105 => ⟨S3300000, .i32⟩
  | 106 => ⟨S3300000, .i32⟩
  | 107 => ⟨S3300000x1, .i32⟩
  | 108 => ⟨S3300000, .f32⟩
  | 109 => ⟨S3300000, .f32⟩
  | 110 => ⟨S_, .i32⟩
  | 111 => ⟨S3300000, .i32⟩
  | 112 => ⟨S3300000, .i1⟩
  | 113 => ⟨S_, .i32⟩
  | 114 => ⟨S3300000, .i32⟩
  | 115 => ⟨S3300000, .i32⟩
  | 116 => ⟨S3300000, .i32⟩
  | 117 => ⟨S3300000x1, .i32⟩
  | 118 => ⟨S3300000x2, .f32⟩
  | 119 => ⟨S3300000x1, .f32⟩
  | 120 => ⟨S3300000x2, .f32⟩
  | 121 => ⟨S3300000x2, .f32⟩
  | 122 => ⟨S_, .f32⟩
  | 123 => ⟨S100000x2, .f32⟩
  | 124 => ⟨S3300000x1, .i32⟩
  | 125 => ⟨S100000x2, .f32⟩
  | 126 => ⟨S1x2, .f32⟩
  | 127 => ⟨S100000x2, .f32⟩
  | _ => ⟨S100000x128, .f32⟩

abbrev hbmTy0_1 (i : Nat) : BufTy := match i % 128 with
  | 0 => ⟨S100000x2, .f32⟩
  | 1 => ⟨S_, .f32⟩
  | 2 => ⟨S100000, .f32⟩
  | 3 => ⟨S_, .f32⟩
  | 4 => ⟨S100000, .f32⟩
  | 5 => ⟨S100000, .f32⟩
  | 6 => ⟨S100000x1, .f32⟩
  | 7 => ⟨S100000x2, .f32⟩
  | 8 => ⟨S100000x2, .f32⟩
  | 9 => ⟨S100000x2, .f32⟩
  | 10 => ⟨S_, .f32⟩
  | 11 => ⟨S100000, .f32⟩
  | 12 => ⟨S100000x1, .f32⟩
  | 13 => ⟨S100000x1, .f32⟩
  | 14 => ⟨S100000x2, .f32⟩
  | 15 => ⟨S100000x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_call3_cst : Ref sig .tc := ⟨.hbm, 129, rfl⟩
abbrev main_call3_v0 : Ref sig .tc := ⟨.hbm, 130, rfl⟩
abbrev main_call3_cst_0 : Ref sig .tc := ⟨.hbm, 131, rfl⟩
abbrev main_call3_v1 : Ref sig .tc := ⟨.hbm, 132, rfl⟩
abbrev main_call3_v2 : Ref sig .tc := ⟨.hbm, 133, rfl⟩
abbrev main_call3_v3 : Ref sig .tc := ⟨.hbm, 134, rfl⟩
abbrev main_call3_v4 : Ref sig .tc := ⟨.hbm, 135, rfl⟩
abbrev main_call3_v5 : Ref sig .tc := ⟨.hbm, 136, rfl⟩
abbrev main_call3_v6 : Ref sig .tc := ⟨.hbm, 137, rfl⟩
abbrev main_call3_cst_1 : Ref sig .tc := ⟨.hbm, 138, rfl⟩
abbrev main_call3_v7 : Ref sig .tc := ⟨.hbm, 139, rfl⟩
abbrev main_call3_v8 : Ref sig .tc := ⟨.hbm, 140, rfl⟩
abbrev main_call3_v9 : Ref sig .tc := ⟨.hbm, 141, rfl⟩
abbrev main_call3_v10 : Ref sig .tc := ⟨.hbm, 142, rfl⟩
abbrev main_v95 : Ref sig .tc := ⟨.hbm, 143, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x2_0_1 : S3300000x1.BroadcastsInDim S3300000x2 (![0, 1] : Fin 2 → Fin S3300000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  h_S_ : 0 < S_.numel
  bcast_S100000_S100000x1_0 : S100000.BroadcastsInDim S100000x1 (![0] : Fin 1 → Fin S100000x1.rank)
  bcast_S100000x1_S100000x2_0_1 : S100000x1.BroadcastsInDim S100000x2 (![0, 1] : Fin 2 → Fin S100000x2.rank)
  dot_S100000x128_S128x16_S100000x16_1_0_0_1_n_n_wf : DotDims.WF S100000x128 S128x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x2_S100000x2_1_0_0_1_n_n_wf : DotDims.WF S100000x16 S16x2 S100000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1

variable [Facts₀]

def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x2_S100000x2_1_0_0_1_n_n : DotDims S100000x16 S16x2 S100000x2 where
  lhsContracting := [1]
  rhsContracting := [0]
  lhsNonContracting := [0]
  rhsNonContracting := [1]
  lhsBatch := []
  rhsBatch := []
  wf := dot_S100000x16_S16x2_S100000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf

class Facts : Prop extends Facts₀ where

variable [Facts]
-- ==== Proof.Region0.lean ====
/-
  Region 0 of the idealized kernel: the node features times the first weight matrix, ten row blocks of 10000 nodes.
  At the ideal instance the two format changes are identities and the block product into a zero accumulator is the
  plain sum over the 128 features, so block `t` of the output is rows `10000 t … 10000 t + 9999` of the whole product
  `x · W₁`, which is the reference's first stage.  The ten blocks tile the 100000 rows, so the output array is that
  product.
-/
import proofs.«141122_j8796093022906_1_alg».proof.Proof.Gen.KernelIdeal.Frame
import proofs.«141122_j8796093022906_1_alg».proof.Proof.RefRead
import Idealize.ShloMosaic.Lib.Pipeline.Value
import Idealize.ShloMosaic.Lib.ValueIdx
import Idealize.ShloMosaic.PureOps.Ideal.Laws

set_option maxRecDepth 16384

noncomputable section

namespace Cert.KernelIdeal.Region0

open Idealize.ShloMosaic Idealize.ShloMosaic.TcCoe Idealize.SL.Sem
open Idealize.ShloMosaic.Pipeline (Dat Cfg Window)
open Cert.KernelIdeal Cert.KernelIdeal.Gen

/-- Row `j 0`, feature `k` of the block of node features. -/
abbrev lrow (j : S10000x16.Idx) (k : Fin 128) : S10000x128.Idx := fun a => match a with
  | ⟨0, _⟩ => ⟨(j 0).val, (j 0).isLt⟩
  | ⟨1, _⟩ => ⟨k.val, k.isLt⟩
/-- Feature `k`, hidden unit `j 1` of the weight matrix. -/
abbrev rcol (j : S10000x16.Idx) (k : Fin 128) : S128x16.Idx := fun a => match a with
  | ⟨0, _⟩ => ⟨k.val, k.isLt⟩
  | ⟨1, _⟩ => ⟨(j 1).val, (j 1).isLt⟩

local notation "D0" => dot_S10000x128_S128x16_S10000x16_1_0_0_1_n_n

theorem lhs_0 (i : S10000x16.Idx) (q : (D0).contr.Idx) : ((D0).lhsIdx i q 0).val = (i 0).val := by
  unfold DotDims.lhsIdx
  rw [dif_neg (show ¬(0 : Fin S10000x128.rank) ∈ (D0).lhsBatch by decide), dif_pos (show (0 : Fin S10000x128.rank) ∈ (D0).lhsNonContracting by decide)]
  rfl
theorem rhs_1 (i : S10000x16.Idx) (q : (D0).contr.Idx) : ((D0).rhsIdx i q 1).val = (i 1).val := by
  unfold DotDims.rhsIdx
  rw [dif_neg (show ¬(1 : Fin S128x16.rank) ∈ (D0).rhsBatch by decide), dif_pos (show (1 : Fin S128x16.rank) ∈ (D0).rhsNonContracting by decide)]
  rfl

/-- The body's product at an entry of the block: the sum over the 128 features. -/
theorem pay_apply (x0 : Vec Ideal S10000x128 .f32) (x1 : Vec Ideal S128x16 .f32) (j : S10000x16.Idx) :
    k0_pay1 (F := Ideal) x0 x1 j = ∑ k : Fin 128, x0 (lrow j k) * x1 (rcol j k) := by
  unfold k0_pay1
  unfold matmul
  rw [Ideal.matmul_constant_zero_apply, ← Equiv.sum_comp (ValueIdx.contrEquiv1 (D0) 128 rfl rfl).symm]
  refine Finset.sum_congr rfl fun k _ => ?_
  have hk := ValueIdx.contrEquiv1_symm_val (D0) 128 rfl rfl k
  have el : (D0).lhsIdx j ((ValueIdx.contrEquiv1 (D0) 128 rfl rfl).symm k) = lrow j k := funext fun a => Fin.ext (by
    match a with
    | ⟨0, _⟩ => exact lhs_0 _ _
    | ⟨1, _⟩ => exact ((D0).lhsIdx_val_of_single rfl j _).trans hk)
  have er : (D0).rhsIdx j ((ValueIdx.contrEquiv1 (D0) 128 rfl rfl).symm k) = rcol j k := funext fun a => Fin.ext (by
    match a with
    | ⟨0, _⟩ => exact ((D0).rhsIdx_val_of_single rfl j _).trans hk
    | ⟨1, _⟩ => exact rhs_1 _ _)
  rw [el, er]
  rfl

/-! ## From blocks to the array -/

section Blocks

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten grid points: the feature block and the output block are row block `t`; the
    weight block is the whole matrix at every point. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product of the two arrays the region finds. -/
theorem flushed_eq (c : Dev nD) (t : Fin cfg0.N) :
    (dat0 V c).flushed 2 t = ((cfg0.win 2).blk t).view.read (Elt Ideal)
      (Cert.ReferenceIdeal.ReadP.val_main_v0 (F := Ideal) (V c (Pipeline.arrRef spec0 0)) (V c (Pipeline.arrRef spec0 1))) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x16) hz]
  obtain ⟨e0, e1, e2, e3, e4, e5⟩ := idx_facts t
  funext j
  refine (pay_apply (iblk0 V c 0 t) (iblk0 V c 1 t) j).trans ?_
  refine Eq.trans ?_ (Cert.ReferenceIdeal.ReadP.val_main_v0_apply (V c (Pipeline.arrRef spec0 0)) (V c (Pipeline.arrRef spec0 1)) (((cfg0.win 2).blk t).view.emb j)).symm
  refine Finset.sum_congr rfl fun k _ => ?_
  have h0 : ((cfg0.win 0).blk t).view.emb (lrow j k) = Cert.ReferenceIdeal.ReadP.lidx_main_v0 (((cfg0.win 2).blk t).view.emb j) k := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  have h1 : ((cfg0.win 1).blk t).view.emb (rcol j k) = Cert.ReferenceIdeal.ReadP.ridx_main_v0 (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 16 + 1 * (j 1).val = win0_2.index t (1 : Fin 2) * 16 + 1 * (j 1).val; omega
  exact congrArg₂ _ (congrArg (V c (Pipeline.arrRef spec0 0)) h0) (congrArg (V c (Pipeline.arrRef spec0 1)) h1)

/-- An index of the output array is in point `t`'s block iff each coordinate is in the block's range on its axis. -/
theorem mem_blk (t : Fin cfg0.N) (i : S100000x16.Idx) :
    i ∈ ((cfg0.win 2).blk t).view.set ↔ ∀ a : Fin 2, win0_2.index t a * S10000x16.size a ≤ (i a).val ∧ (i a).val < win0_2.index t a * S10000x16.size a + S10000x16.size a := by
  show i ∈ ((View.whole main_v30).slice (win0_2.rect t)).set ↔ _
  rw [View.set_slice_whole, Rect.mem_set_unit]
  exact Iff.rfl

/-- Every row block is some point's. -/
theorem idx_onto : ∀ q : Fin 10, ∃ t : Fin cfg0.N, win0_2.index t = ![q.val, 0] :=
  (by decide +kernel : ∀ q : Fin 10, ∃ t : Fin grid0.N, win0_2.index t = ![q.val, 0])

/-- The ten blocks tile the rows: row `r` is in block `r / 10000`. -/
theorem cover (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 16 ≤ (i 1).val ∧ (i 1).val < win0_2.index t (1 : Fin 2) * 16 + 16; omega

/-- The output array after the region: the whole product of the two arrays the region finds. -/
theorem final (c : Dev nD) : (dat0 V c).arrAt 2 cfg0.N
    = Cert.ReferenceIdeal.ReadP.val_main_v0 (F := Ideal) (V c (Pipeline.arrRef spec0 0)) (V c (Pipeline.arrRef spec0 1)) :=
  (dat0 V c).arrAt_eq_of_cover 2 _ (fun t _ => flushed_eq V c t) cover

end Blocks

end Cert.KernelIdeal.Region0

end
-- ==== Proof.Spec.lean ====
/-
  The three dense stages of the two-layer graph convolution as functions of whole arrays, index by index, at the ideal
  values (extended reals, exact operations).
  * `dense2 A b W`: for an aggregated array `A` [100000, 16], a bias `b` [16] and weights `W` [16, 2], the array
    `max(A + b, 0) · W` [100000, 2]: at (r, c) the sum over the 16 hidden units `k` of `max (A (r, k) + b k) 0 * W (k, c)`.
  * `logSoftmax2 B b`: for an aggregated array `B` [100000, 2] and a bias `b` [2], the row-wise log-softmax of
    `B + b`: with a row's logits `z₀, z₁` and their maximum `M` (folded from −∞),
    `(z_c − M) − log (exp (z₀ − M) + exp (z₁ − M))`.
  The zero and −∞ are kept as the float words both programs spell them with.
-/
import Idealize.ShloMosaic.PureOps.Ideal
import Idealize.ShloMosaic.Lib.ValueIdx

noncomputable section

namespace Cert.Spec

open Idealize.ShloMosaic Idealize.ShloMosaic.ValueIdx

abbrev T100000x16 : Shape := ⟨2, ![100000, 16]⟩
abbrev T100000x2 : Shape := ⟨2, ![100000, 2]⟩
abbrev T16x2 : Shape := ⟨2, ![16, 2]⟩
abbrev T16 : Shape := ⟨1, ![16]⟩
abbrev T2 : Shape := ⟨1, ![2]⟩

/-- The float word of zero at the ideal values. -/
abbrev zeroW : Ideal .f32 := FloatOps.ofBits (F := Ideal) .f32 0x00000000#32
/-- The float word of −∞ at the ideal values. -/
abbrev negInfW : Ideal .f32 := FloatOps.ofBits (F := Ideal) .f32 0xFF800000#32

/-- Row `i 0`, hidden unit `k`. -/
abbrev hid (i : T100000x2.Idx) (k : Fin 16) : T100000x16.Idx := fun a => match a with
  | ⟨0, _⟩ => ⟨(i 0).val, (i 0).isLt⟩
  | ⟨1, _⟩ => ⟨k.val, k.isLt⟩
/-- Hidden unit `k`, class `i 1`. -/
abbrev wgt (i : T100000x2.Idx) (k : Fin 16) : T16x2.Idx := fun a => match a with
  | ⟨0, _⟩ => ⟨k.val, k.isLt⟩
  | ⟨1, _⟩ => ⟨(i 1).val, (i 1).isLt⟩

/-- `max(A + b, 0) · W`. -/
def dense2 (A : T100000x16.Idx → Ideal .f32) (b : T16.Idx → Ideal .f32) (W : T16x2.Idx → Ideal .f32) :
    T100000x2.Idx → Ideal .f32 :=
  fun i => ∑ k : Fin 16, max (A (hid i k) + b (ix1 k)) zeroW * W (wgt i k)

/-- The maximum of a row's two logits, folded from −∞. -/
def rowMax (z : Fin 2 → Ideal .f32) : Ideal .f32 := (Finset.univ : Finset (Fin 2)).fold max negInfW z

/-- The log-softmax of a row of two logits at class `q`. -/
def logSoftmaxRow (z : Fin 2 → Ideal .f32) (q : Fin 2) : Ideal .f32 :=
  (z q - rowMax z) - Ideal.log (∑ k : Fin 2, Ideal.exp (z k - rowMax z))

/-- Taking the maximum with the fold's starting value once more changes nothing: the fold is at least its start. -/
theorem max_start_rowMax (z : Fin 2 → Ideal .f32) : max negInfW (rowMax z) = rowMax z :=
  max_eq_right (Finset.le_fold_max _ |>.mpr (Or.inl le_rfl))

/-- The row-wise log-softmax of `B + b`. -/
def logSoftmax2 (B : T100000x2.Idx → Ideal .f32) (b : T2.Idx → Ideal .f32) : T100000x2.Idx → Ideal .f32 :=
  fun i => logSoftmaxRow (fun k => B (ix2 (⟨(i 0).val, (i 0).isLt⟩ : Fin 100000) k) + b (ix1 k)) ⟨(i 1).val, (i 1).isLt⟩

theorem logSoftmax2_apply (B : T100000x2.Idx → Ideal .f32) (b : T2.Idx → Ideal .f32) (P : Fin 100000) (q : Fin 2) :
    logSoftmax2 B b (ix2 P q) = logSoftmaxRow (fun k => B (ix2 P k) + b (ix1 k)) q := rfl

end Cert.Spec

end
-- ==== Proof.Region1.lean ====
/-
  Region 1 of the idealized kernel: the first aggregation plus the first bias, clipped below at zero, times the second
  weight matrix, ten row blocks of 10000 nodes.  At the ideal instance the format changes are identities and the block
  product into a zero accumulator is the plain sum over the 16 hidden units, so block `t` of the output is rows
  `10000 t … 10000 t + 9999` of `max(A + b, 0) · W` for the aggregated array `A` the region finds, the bias `b` read
  through its [1, 16] reshape, and the weights `W`.  The ten blocks tile the 100000 rows, so the output array is that
  function of the three arrays.
-/
import proofs.«141122_j8796093022906_1_alg».proof.Proof.Gen.KernelIdeal.Frame
import proofs.«141122_j8796093022906_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Idealize.ShloMosaic Idealize.ShloMosaic.TcCoe Idealize.SL.Sem Idealize.ShloMosaic.ValueIdx
open Idealize.ShloMosaic.Pipeline (Dat Cfg Window)
open Cert.KernelIdeal Cert.KernelIdeal.Gen

/-- Row `j 0`, hidden unit `k` of the block of aggregated features. -/
abbrev lrow (j : S10000x2.Idx) (k : Fin 16) : S10000x16.Idx := fun a => match a with
  | ⟨0, _⟩ => ⟨(j 0).val, (j 0).isLt⟩
  | ⟨1, _⟩ => ⟨k.val, k.isLt⟩
/-- Hidden unit `k` of the bias row. -/
abbrev brow (k : Fin 16) : S1x16.Idx := fun a => match a with
  | ⟨0, _⟩ => ⟨0, Nat.one_pos⟩
  | ⟨1, _⟩ => ⟨k.val, k.isLt⟩
/-- Hidden unit `k`, class `j 1` of the weight matrix. -/
abbrev rcol (j : S10000x2.Idx) (k : Fin 16) : S16x2.Idx := fun a => match a with
  | ⟨0, _⟩ => ⟨k.val, k.isLt⟩
  | ⟨1, _⟩ => ⟨(j 1).val, (j 1).isLt⟩

local notation "D1" => dot_S10000x16_S16x2_S10000x2_1_0_0_1_n_n

theorem lhs_0 (i : S10000x2.Idx) (q : (D1).contr.Idx) : ((D1).lhsIdx i q 0).val = (i 0).val := by
  unfold DotDims.lhsIdx
  rw [dif_neg (show ¬(0 : Fin S10000x16.rank) ∈ (D1).lhsBatch by decide), dif_pos (show (0 : Fin S10000x16.rank) ∈ (D1).lhsNonContracting by decide)]
  rfl
theorem rhs_1 (i : S10000x2.Idx) (q : (D1).contr.Idx) : ((D1).rhsIdx i q 1).val = (i 1).val := by
  unfold DotDims.rhsIdx
  rw [dif_neg (show ¬(1 : Fin S16x2.rank) ∈ (D1).rhsBatch by decide), dif_pos (show (1 : Fin S16x2.rank) ∈ (D1).rhsNonContracting by decide)]
  rfl

/-- The bias row broadcast down the block, read at an entry. -/
theorem bias_apply (v2 : Vec Ideal S1x16 .f32) (j : S10000x2.Idx) (k : Fin 16) :
    broadcastTo S10000x16 v2 broadcasts_S1x16_S10000x16 (lrow j k) = v2 (brow k) :=
  broadcastTo_apply v2 broadcasts_S1x16_S10000x16 (lrow j k) (brow k) (fun a => match a with
    | ⟨0, _⟩ => by show 0 = if (1 : Nat) = 1 then 0 else _; rw [if_pos rfl]
    | ⟨1, _⟩ => by show k.val = if (16 : Nat) = 1 then 0 else k.val; rw [if_neg (by decide)])

/-- The body's product at an entry of the block: the sum over the 16 hidden units of the clipped, biased aggregate
    times the weight. -/
theorem pay_apply (v0 : Vec Ideal S10000x16 .f32) (v2 : Vec Ideal S1x16 .f32) (v9 : Vec Ideal S16x2 .f32) (j : S10000x2.Idx) :
    k1_pay1 (F := Ideal) v0 v2 v9 j
      = ∑ k : Fin 16, max (v0 (lrow j k) + v2 (brow k)) (FloatOps.ofBits (F := Ideal) .f32 0x00000000#32) * v9 (rcol j k) := by
  unfold k1_pay1
  unfold matmul
  rw [Ideal.matmul_constant_zero_apply, ← Equiv.sum_comp (ValueIdx.contrEquiv1 (D1) 16 rfl rfl).symm]
  refine Finset.sum_congr rfl fun k _ => ?_
  have hk := ValueIdx.contrEquiv1_symm_val (D1) 16 rfl rfl k
  have el : (D1).lhsIdx j ((ValueIdx.contrEquiv1 (D1) 16 rfl rfl).symm k) = lrow j k := funext fun a => Fin.ext (by
    match a with
    | ⟨0, _⟩ => exact lhs_0 _ _
    | ⟨1, _⟩ => exact ((D1).lhsIdx_val_of_single rfl j _).trans hk)
  have er : (D1).rhsIdx j ((ValueIdx.contrEquiv1 (D1) 16 rfl rfl).symm k) = rcol j k := funext fun a => Fin.ext (by
    match a with
    | ⟨0, _⟩ => exact ((D1).rhsIdx_val_of_single rfl j _).trans hk
    | ⟨1, _⟩ => exact rhs_1 _ _)
  rw [el, er]
  show max (shapeCast S10000x16 v0 shapeCasts_S10000x16_S10000x16 (lrow j k)
      + broadcastTo S10000x16 (shapeCast S1x16 v2 shapeCasts_S1x16_S1x16) broadcasts_S1x16_S10000x16 (lrow j k)) _ * v9 (rcol j k) = _
  rw [shapeCast_self, shapeCast_self, bias_apply]
  rfl

/-! ## From blocks to the array -/

section Blocks

variable (V : (c : Dev nD) → (b : Ref sig .tc) → Buf (Elt Ideal) ((c : Thread nD τ).loc b))
variable (A : Cert.Spec.T100000x16.Idx → Ideal .f32) (b : Cert.Spec.T16.Idx → Ideal .f32) (W : Cert.Spec.T16x2.Idx → Ideal .f32)

theorem hz : (![0, 0] : Fin 2 → Nat) = fun _ => 0 := funext fun a => by fin_cases a <;> rfl

/-- The printed index maps over the ten grid points: the aggregate's block and the output block are row block `t`; the
    bias row and the weight matrix are whole at every point. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of `max(A + b, 0) · W`, when the region finds `A`, the bias `b` as a [1, 16]
    row, and `W`. -/
theorem flushed_eq (c : Dev nD)
    (h0 : V c (Pipeline.arrRef spec1 0) = A)
    (h1 : V c (Pipeline.arrRef spec1 1) = shapeCast S1x16 b shapeCasts_S16_S1x16)
    (h2 : V c (Pipeline.arrRef spec1 2) = W) (t : Fin cfg1.N) :
    (dat1 V c).flushed 3 t = ((cfg1.win 3).blk t).view.read (Elt Ideal) (Cert.Spec.dense2 A b W) := by
  show (cfg1.win 3).cut (grid1.coords t) ((dat1 V c).after 3 t) = _
  rw [after1_3]
  unfold out1_3
  rw [View.canon_unit_zero hz]
  simp only [View.ld_unit_zero (S := S10000x16) hz, View.ld_unit_zero (S := S1x16) hz, View.ld_unit_zero (S := S16x2) hz]
  obtain ⟨e0, e1, e2, e3, e4, e5, e6, e7⟩ := idx_facts t
  funext j
  refine (pay_apply (iblk1 V c 0 t) (iblk1 V c 1 t) (iblk1 V c 2 t) j).trans ?_
  show _ = ∑ k : Fin 16, max (A (Cert.Spec.hid (((cfg1.win 3).blk t).view.emb j) k) + b (ix1 k)) Cert.Spec.zeroW
      * W (Cert.Spec.wgt (((cfg1.win 3).blk t).view.emb j) k)
  refine Finset.sum_congr rfl fun k _ => ?_
  have a0 : iblk1 V c 0 t (lrow j k) = A (Cert.Spec.hid (((cfg1.win 3).blk t).view.emb j) k) :=
    (congrFun h0 (((cfg1.win 0).blk t).view.emb (lrow j k))).trans (congrArg A (funext fun a => Fin.ext (by
      match a with
      | ⟨0, _⟩ => show win1_0.index t (0 : Fin 2) * 10000 + 1 * (j 0).val = win1_3.index t (0 : Fin 2) * 10000 + 1 * (j 0).val; omega
      | ⟨1, _⟩ => show win1_0.index t (1 : Fin 2) * 16 + 1 * k.val = k.val; omega)))
  have hb : ((cfg1.win 1).blk t).view.emb (brow k) = ix2 (0 : Fin 1) k := funext fun a => Fin.ext (by
    match a with
    | ⟨0, _⟩ => show win1_1.index t (0 : Fin 2) * 1 + 1 * 0 = 0; omega
    | ⟨1, _⟩ => show win1_1.index t (1 : Fin 2) * 16 + 1 * k.val = k.val; omega)
  have a1 : iblk1 V c 1 t (brow k) = b (ix1 k) :=
    (congrFun h1 (((cfg1.win 1).blk t).view.emb (brow k))).trans
      ((congrArg (shapeCast S1x16 b shapeCasts_S16_S1x16) hb).trans (shapeCast_a_1a_apply b shapeCasts_S16_S1x16 0 k))
  have a2 : iblk1 V c 2 t (rcol j k) = W (Cert.Spec.wgt (((cfg1.win 3).blk t).view.emb j) k) :=
    (congrFun h2 (((cfg1.win 2).blk t).view.emb (rcol j k))).trans (congrArg W (funext fun a => Fin.ext (by
      match a with
      | ⟨0, _⟩ => show win1_2.index t (0 : Fin 2) * 16 + 1 * k.val = k.val; omega
      | ⟨1, _⟩ => show win1_2.index t (1 : Fin 2) * 2 + 1 * (j 1).val = win1_3.index t (1 : Fin 2) * 2 + 1 * (j 1).val; omega)))
  rw [a0, a1, a2]

/-- An index of the output array is in point `t`'s block iff each coordinate is in the block's range on its axis. -/
theorem mem_blk (t : Fin cfg1.N) (i : S100000x2.Idx) :
    i ∈ ((cfg1.win 3).blk t).view.set ↔ ∀ a : Fin 2, win1_3.index t a * S10000x2.size a ≤ (i a).val ∧ (i a).val < win1_3.index t a * S10000x2.size a + S10000x2.size a := by
  show i ∈ ((View.whole main_v45).slice (win1_3.rect t)).set ↔ _
  rw [View.set_slice_whole, Rect.mem_set_unit]
  exact Iff.rfl

/-- Every row block is some point's. -/
theorem idx_onto : ∀ q : Fin 10, ∃ t : Fin cfg1.N, win1_3.index t = ![q.val, 0] :=
  (by decide +kernel : ∀ q : Fin 10, ∃ t : Fin grid1.N, win1_3.index t = ![q.val, 0])

/-- The ten blocks tile the rows: row `r` is in block `r / 10000`. -/
theorem cover (i : S100000x2.Idx) : ∃ t : Fin cfg1.N, (cfg1.win 3).flush t = true ∧ i ∈ ((cfg1.win 3).blk t).view.set := by
  have hi0 : (i 0).val < 100000 := (i 0).isLt
  have hi1 : (i 1).val < 2 := (i 1).isLt
  obtain ⟨t, ht⟩ := idx_onto ⟨(i 0).val / 10000, by omega⟩
  have q0 : win1_3.index t (0 : Fin 2) = (i 0).val / 10000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 2 ≤ (i 1).val ∧ (i 1).val < win1_3.index t (1 : Fin 2) * 2 + 2; omega

/-- The output array after the region: `max(A + b, 0) · W`. -/
theorem final (c : Dev nD)
    (h0 : V c (Pipeline.arrRef spec1 0) = A)
    (h1 : V c (Pipeline.arrRef spec1 1) = shapeCast S1x16 b shapeCasts_S16_S1x16)
    (h2 : V c (Pipeline.arrRef spec1 2) = W) :
    (dat1 V c).arrAt 3 cfg1.N = Cert.Spec.dense2 A b W :=
  (dat1 V c).arrAt_eq_of_cover 3 _ (fun t _ => flushed_eq V A b W c h0 h1 h2 t) cover

end Blocks

end Cert.KernelIdeal.Region1

end
-- ==== Proof.Region2.lean ====
/-
  Region 2 of the idealized kernel: the second aggregation plus the second bias, then the row-wise log-softmax over the
  two classes, ten row blocks of 10000 nodes.  For a row with logits `z₀, z₁` (the aggregate plus the bias, the bias read
  through its [1, 2] reshape) the body computes the row maximum `M` as the fold of `max` from −∞, then
  `(z_q − M) − log (exp (z₀ − M) + exp (z₁ − M))`: the row function `logSoftmaxRow`.  The ten blocks tile the 100000 rows,
  so the output array is `logSoftmax2` of the aggregated array and the bias the region finds.
-/
import proofs.«141122_j8796093022906_1_alg».proof.Proof.Gen.KernelIdeal.Frame
import proofs.«141122_j8796093022906_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Spec

/-! ## The body at an entry of the block -/

/-- Row `j 0`, class `k` of the block. -/
abbrev row (j : S10000x2.Idx) (k : Fin 2) : S10000x2.Idx := ix2 (j 0) k
/-- Class `k` of the bias row. -/
abbrev brow (k : Fin 2) : S1x2.Idx := ix2 (0 : Fin 1) k

theorem lift_row (h : S10000x2.Reduces [1] S10000) (p : Fin 10000) (k : Fin (S10000x2.size 1)) :
    h.lift (ix1 p) k = ix2 p (⟨k.val, k.isLt⟩ : Fin 2) := by
  funext c; apply Fin.ext
  fin_cases c <;> rfl

/-- A [10000] column cast to [10000, 1] reads, at `(p, u)`, the operand at `p`. -/
theorem col_cast_apply (x : FVec Ideal S10000 .f32) (p : Fin 10000) (u : Fin 1) :
    shapeCast S10000x1 x shapeCasts_S10000_S10000x1 (ix2 p u) = x (ix1 p) :=
  shapeCast_apply x shapeCasts_S10000_S10000x1 _ _ (by
    have hu : u.val = 0 := by omega
    rw [Shape.rowMajor_val_two, Shape.rowMajor_val_one]
    show p.val = p.val * 1 + u.val
    omega)

/-- A [10000, 1] column broadcast to [10000, 2] reads, at `(p, q)`, the operand at `(p, 0)`. -/
theorem col_bcast_apply (x : FVec Ideal S10000x1 .f32) (p : Fin 10000) (q : Fin 2) :
    broadcastTo S10000x2 x broadcasts_S10000x1_S10000x2 (ix2 p q) = x (ix2 p (0 : Fin 1)) :=
  broadcastTo_apply x broadcasts_S10000x1_S10000x2 (ix2 p q) (ix2 p (0 : Fin 1)) (fun a => match a with
    | ⟨0, _⟩ => by show p.val = if (10000 : Nat) = 1 then 0 else p.val; rw [if_neg (by decide)]
    | ⟨1, _⟩ => by show 0 = if (1 : Nat) = 1 then 0 else q.val; rw [if_pos rfl])

/-- The biased logits of the block at an entry. -/
theorem logits_apply (v0 : Vec Ideal S10000x2 .f32) (v2 : Vec Ideal S1x2 .f32) (p : Fin 10000) (q : Fin 2) :
    (addf (F := Ideal) (shapeCast S10000x2 v0 shapeCasts_S10000x2_S10000x2)
        (broadcastTo S10000x2 (shapeCast S1x2 v2 shapeCasts_S1x2_S1x2) broadcasts_S1x2_S10000x2) : FVec Ideal S10000x2 .f32) (ix2 p q)
      = v0 (ix2 p q) + v2 (ix2 (0 : Fin 1) q) := by
  rw [addf_apply, shapeCast_self, shapeCast_self, broadcastTo_1b_ab_apply]

/-- The row maximum of a [10000, 2] block of logits at row `p`. -/
theorem blockMax_apply (Z : FVec Ideal S10000x2 .f32) (p : Fin 10000) :
    multiReduction .maximumf [1] S10000 Z 0xFF800000#32 reduces_S10000x2_S10000 (.inl rfl) rfl (ix1 p)
      = rowMax (fun k => Z (ix2 p k)) := by
  refine (Ideal.multiReduction_maximumf_single Z 0xFF800000#32 reduces_S10000x2_S10000 (.inl rfl) rfl (ix1 p)).trans ?_
  unfold rowMax
  exact congrArg (fun f => Finset.fold max _ f (Finset.univ : Finset (Fin 2)))
    (funext fun k => congrArg Z (lift_row reduces_S10000x2_S10000 p k))

/-- A block of logits minus its row maxima, at an entry. -/
theorem shifted_apply (Z : FVec Ideal S10000x2 .f32) (p : Fin 10000) (q : Fin 2) :
    subf Z (broadcastTo S10000x2 (shapeCast S10000x1
        (multiReduction .maximumf [1] S10000 Z 0xFF800000#32 reduces_S10000x2_S10000 (.inl rfl) rfl)
        shapeCasts_S10000_S10000x1) broadcasts_S10000x1_S10000x2) (ix2 p q)
      = Z (ix2 p q) - rowMax (fun k => Z (ix2 p k)) := by
  rw [subf_apply, col_bcast_apply, col_cast_apply, blockMax_apply]

/-- The body's chain of operations on a block of logits `Z`, at an entry: the log-softmax of the entry's row. -/
theorem lsm_apply (Z : FVec Ideal S10000x2 .f32) (p : Fin 10000) (q : Fin 2) :
    subf (subf Z (broadcastTo S10000x2 (shapeCast S10000x1
          (multiReduction .maximumf [1] S10000 Z 0xFF800000#32 reduces_S10000x2_S10000 (.inl rfl) rfl)
          shapeCasts_S10000_S10000x1) broadcasts_S10000x1_S10000x2))
        (broadcastTo S10000x2 (log (shapeCast S10000x1
          (multiReduction .add [1] S10000 (exp (subf Z (broadcastTo S10000x2 (shapeCast S10000x1
              (multiReduction .maximumf [1] S10000 Z 0xFF800000#32 reduces_S10000x2_S10000 (.inl rfl) rfl)
              shapeCasts_S10000_S10000x1) broadcasts_S10000x1_S10000x2)))
            0x00000000#32 reduces_S10000x2_S10000 (.inl rfl) rfl)
          shapeCasts_S10000_S10000x1)) broadcasts_S10000x1_S10000x2) (ix2 p q)
      = logSoftmaxRow (fun k => Z (ix2 p k)) q := by
  rw [subf_apply, shifted_apply, col_bcast_apply]
  unfold logSoftmaxRow
  refine congrArg (Z (ix2 p q) - rowMax (fun k => Z (ix2 p k)) - ·) ?_
  show Ideal.log (shapeCast S10000x1 _ shapeCasts_S10000_S10000x1 (ix2 p (0 : Fin 1))) = _
  rw [col_cast_apply]
  refine congrArg Ideal.log ((Ideal.multiReduction_add_single _ 0x00000000#32 reduces_S10000x2_S10000 (.inl rfl) rfl (ix1 p)).trans ?_)
  refine Finset.sum_congr rfl fun k _ => ?_
  show Ideal.exp (subf Z _ (reduces_S10000x2_S10000.lift (ix1 p) k)) = _
  rw [lift_row, shifted_apply]
  rfl

/-- The body's result at an entry of the block: the log-softmax of the row's biased logits. -/
theorem pay_apply (v0 : Vec Ideal S10000x2 .f32) (v2 : Vec Ideal S1x2 .f32) (p : Fin 10000) (q : Fin 2) :
    k2_pay1 (F := Ideal) v0 v2 (ix2 p q) = logSoftmaxRow (fun k => v0 (ix2 p k) + v2 (ix2 (0 : Fin 1) k)) q := by
  unfold k2_pay1
  exact (lsm_apply _ p q).trans (congrArg (fun z => logSoftmaxRow z q) (funext fun k => logits_apply v0 v2 p k))

/-- The same at any entry `j` of the block, by its two coordinates. -/
theorem pay_apply' (v0 : Vec Ideal S10000x2 .f32) (v2 : Vec Ideal S1x2 .f32) (j : S10000x2.Idx) :
    k2_pay1 (F := Ideal) v0 v2 j
      = logSoftmaxRow (fun k => v0 (ix2 (⟨(j 0).val, (j 0).isLt⟩ : Fin 10000) k) + v2 (ix2 (0 : Fin 1) k)) ⟨(j 1).val, (j 1).isLt⟩ := by
  obtain ⟨p, q, rfl⟩ : ∃ (p : Fin 10000) (q : Fin 2), j = ix2 p q := ⟨j 0, j 1, eq_ix2 j⟩
  exact pay_apply v0 v2 p q

/-! ## From blocks to the array -/

section Blocks

variable (V : (c : Dev nD) → (b : Ref sig .tc) → Buf (Elt Ideal) ((c : Thread nD τ).loc b))
variable (B : T100000x2.Idx → Ideal .f32) (b : T2.Idx → Ideal .f32)

theorem hz : (![0, 0] : Fin 2 → Nat) = fun _ => 0 := funext fun a => by fin_cases a <;> rfl

/-- The printed index maps over the ten grid points: the aggregate's block and the output block are row block `t`; the
    bias row is whole at every point. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the row-wise log-softmax of `B + b`, when the region finds `B` and the
    bias `b` as a [1, 2] row. -/
theorem flushed_eq (c : Dev nD)
    (h0 : V c (Pipeline.arrRef spec2 0) = B)
    (h1 : V c (Pipeline.arrRef spec2 1) = shapeCast S1x2 b shapeCasts_S2_S1x2) (t : Fin cfg2.N) :
    (dat2 V c).flushed 2 t = ((cfg2.win 2).blk t).view.read (Elt Ideal) (logSoftmax2 B b) := by
  show (cfg2.win 2).cut (grid2.coords t) ((dat2 V c).after 2 t) = _
  rw [after2_2]
  unfold out2_2
  rw [View.canon_unit_zero hz]
  simp only [View.ld_unit_zero (S := S10000x2) hz, View.ld_unit_zero (S := S1x2) hz]
  obtain ⟨e0, e1, e2, e3, e4, e5⟩ := idx_facts t
  funext j
  refine (pay_apply' (iblk2 V c 0 t) (iblk2 V c 1 t) j).trans ?_
  show _ = logSoftmaxRow (fun k => B (ix2 (⟨((((cfg2.win 2).blk t).view.emb j) 0).val, ((((cfg2.win 2).blk t).view.emb j) 0).isLt⟩ : Fin 100000) k) + b (ix1 k))
      ⟨((((cfg2.win 2).blk t).view.emb j) 1).val, ((((cfg2.win 2).blk t).view.emb j) 1).isLt⟩
  refine congrArg₂ logSoftmaxRow (funext fun k => ?_) (Fin.ext ?_)
  · have a0 : iblk2 V c 0 t (ix2 (⟨(j 0).val, (j 0).isLt⟩ : Fin 10000) k)
        = B (ix2 (⟨((((cfg2.win 2).blk t).view.emb j) 0).val, ((((cfg2.win 2).blk t).view.emb j) 0).isLt⟩ : Fin 100000) k) :=
      (congrFun h0 (((cfg2.win 0).blk t).view.emb (ix2 (⟨(j 0).val, (j 0).isLt⟩ : Fin 10000) k))).trans (congrArg B (funext fun a => Fin.ext (by
        match a with
        | ⟨0, _⟩ => show win2_0.index t (0 : Fin 2) * 10000 + 1 * (j 0).val = win2_2.index t (0 : Fin 2) * 10000 + 1 * (j 0).val; omega
        | ⟨1, _⟩ => show win2_0.index t (1 : Fin 2) * 2 + 1 * k.val = k.val; omega)))
    have hb : ((cfg2.win 1).blk t).view.emb (ix2 (0 : Fin 1) k) = ix2 (0 : Fin 1) k := funext fun a => Fin.ext (by
      match a with
      | ⟨0, _⟩ => show win2_1.index t (0 : Fin 2) * 1 + 1 * 0 = 0; omega
      | ⟨1, _⟩ => show win2_1.index t (1 : Fin 2) * 2 + 1 * k.val = k.val; omega)
    have a1 : iblk2 V c 1 t (ix2 (0 : Fin 1) k) = b (ix1 k) :=
      (congrFun h1 (((cfg2.win 1).blk t).view.emb (ix2 (0 : Fin 1) k))).trans
        ((congrArg (shapeCast S1x2 b shapeCasts_S2_S1x2) hb).trans (shapeCast_a_1a_apply b shapeCasts_S2_S1x2 0 k))
    rw [a0, a1]
  · show (j 1).val = win2_2.index t (1 : Fin 2) * 2 + 1 * (j 1).val
    omega

/-- An index of the output array is in point `t`'s block iff each coordinate is in the block's range on its axis. -/
theorem mem_blk (t : Fin cfg2.N) (i : S100000x2.Idx) :
    i ∈ ((cfg2.win 2).blk t).view.set ↔ ∀ a : Fin 2, win2_2.index t a * S10000x2.size a ≤ (i a).val ∧ (i a).val < win2_2.index t a * S10000x2.size a + S10000x2.size a := by
  show i ∈ ((View.whole main_v60).slice (win2_2.rect t)).set ↔ _
  rw [View.set_slice_whole, Rect.mem_set_unit]
  exact Iff.rfl

/-- Every row block is some point's. -/
theorem idx_onto : ∀ q : Fin 10, ∃ t : Fin cfg2.N, win2_2.index t = ![q.val, 0] :=
  (by decide +kernel : ∀ q : Fin 10, ∃ t : Fin grid2.N, win2_2.index t = ![q.val, 0])

/-- The ten blocks tile the rows: row `r` is in block `r / 10000`. -/
theorem cover (i : S100000x2.Idx) : ∃ t : Fin cfg2.N, (cfg2.win 2).flush t = true ∧ i ∈ ((cfg2.win 2).blk t).view.set := by
  have hi0 : (i 0).val < 100000 := (i 0).isLt
  have hi1 : (i 1).val < 2 := (i 1).isLt
  obtain ⟨t, ht⟩ := idx_onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 2 ≤ (i 1).val ∧ (i 1).val < win2_2.index t (1 : Fin 2) * 2 + 2; omega

/-- The output array after the region: the row-wise log-softmax of `B + b`. -/
theorem final (c : Dev nD)
    (h0 : V c (Pipeline.arrRef spec2 0) = B)
    (h1 : V c (Pipeline.arrRef spec2 1) = shapeCast S1x2 b shapeCasts_S2_S1x2) :
    (dat2 V c).arrAt 2 cfg2.N = logSoftmax2 B b :=
  (dat2 V c).arrAt_eq_of_cover 2 _ (fun t _ => flushed_eq V B b c h0 h1 t) cover

end Blocks

end Cert.KernelIdeal.Region2

end
-- ==== Proof.RefStages.lean ====
/-
  The reference's dense stages are the specification's functions.  Its stage before the second aggregation is
  `max(A + b₁, 0) · W₂` of its first aggregation `A`; its last stage is the row-wise log-softmax of its second aggregation
  plus `b₂` (its one more `max` of −∞ with the row maximum changes nothing, and the host's zero initial value in front of
  the row sum is a zero).  The aggregations themselves (gathers and scatter-adds over 3.3 million edges) are never opened:
  each proof names them by a variable before anything is compared.
-/
import proofs.«141122_j8796093022906_1_alg».proof.Proof.RefRead
import proofs.«141122_j8796093022906_1_alg».proof.Proof.Spec
import Idealize.ShloMosaic.Lib.ValueIdx
import Idealize.ShloMosaic.PureOps.Ideal.Laws

set_option maxRecDepth 65536

noncomputable section

namespace Cert.ReferenceIdeal.Stages

open Idealize.ShloMosaic Idealize.ShloMosaic.TcCoe Idealize.SL.Sem Idealize.ShloMosaic.ValueIdx
open Cert.ReferenceIdeal Cert.ReferenceIdeal.Gen Cert.ReferenceIdeal.ReadP Cert.Spec

variable (x0 : (⟨S100000x128, .f32⟩ : BufTy).Contents (Elt Ideal))
  (x1 : (⟨S128x16, .f32⟩ : BufTy).Contents (Elt Ideal))
  (x2 : (⟨S16, .f32⟩ : BufTy).Contents (Elt Ideal))
  (x3 : (⟨S16x2, .f32⟩ : BufTy).Contents (Elt Ideal))
  (x4 : (⟨S2, .f32⟩ : BufTy).Contents (Elt Ideal))
  (x5 : (⟨S2x3200000, .i32⟩ : BufTy).Contents (Elt Ideal))

/-! ## The stage before the second aggregation -/

theorem dense2_eq : val_main_v48 (F := Ideal) x0 x1 x2 x3 x5 = dense2 (val_main_v43 (F := Ideal) x0 x1 x5) x2 x3 := by
  funext i
  refine (val_main_v48_apply x0 x1 x2 x3 x5 i).trans ?_
  unfold dense2
  refine Finset.sum_congr rfl fun k _ => ?_
  rw [val_main_v47_apply, val_main_v46_apply, val_main_v45_apply, val_main_v44_apply, val_main_call1_v0_apply,
    val_main_call1_cst_apply]
  generalize val_main_v43 (F := Ideal) x0 x1 x5 = A
  have e : idx_main_v44 (idx_main_v45 (lidx_main_v48 i k)) = ix1 k :=
    funext fun a => Fin.ext (by match a with | ⟨0, _⟩ => rfl)
  have el : lidx_main_v48 i k = hid i k := funext fun a => Fin.ext (by match a with | ⟨0, _⟩ => rfl | ⟨1, _⟩ => rfl)
  have er : ridx_main_v48 i k = wgt i k := funext fun a => Fin.ext (by match a with | ⟨0, _⟩ => rfl | ⟨1, _⟩ => rfl)
  rw [e, el, er]
  rfl

/-! ## The last stage -/

/-- The reference's biased logits at an entry. -/
theorem logits_apply (P : Fin 100000) (q : Fin 2) :
    val_main_v94 (F := Ideal) x0 x1 x2 x3 x4 x5 (ix2 P q) = val_main_v91 (F := Ideal) x0 x1 x2 x3 x5 (ix2 P q) + x4 (ix1 q) := by
  rw [val_main_v94_apply, val_main_v93_apply, val_main_v92_apply]
  generalize val_main_v91 (F := Ideal) x0 x1 x2 x3 x5 = Bv
  have e : idx_main_v92 (idx_main_v93 (ix2 P q)) = ix1 q := funext fun a => Fin.ext (by match a with | ⟨0, _⟩ => rfl)
  rw [e]
  rfl

theorem lift_row (h : S100000x2.Reduces [1] S100000) (P : Fin 100000) (k : Fin (S100000x2.size 1)) :
    h.lift (ix1 P) k = ix2 P (⟨k.val, k.isLt⟩ : Fin 2) := by
  funext c; apply Fin.ext
  fin_cases c <;> rfl

/-- The host's reduce with a maximum body from −∞ over the two classes, at row `P`, is the row's fold. -/
theorem reduceMax_apply (Z : S100000x2.Idx → Ideal .f32) (P : Fin 100000) :
    Host.reduce FloatOps.maximumf Z (constant (F := Ideal) S_ .f32 0xFF800000#32) reducesTo_S100000x2_S100000_d1 h_S_ (ix1 P)
      = rowMax (fun k => Z (ix2 P k)) := by
  refine (Host.reduce_eq_fold_single FloatOps.maximumf Z _ reducesTo_S100000x2_S100000_d1 (by decide) h_S_ (ix1 P)).trans ?_
  unfold rowMax
  exact congrArg (fun f => Finset.fold max negInfW f (Finset.univ : Finset (Fin 2)))
    (funext fun k => congrArg Z (lift_row _ P k))

/-- The reference's row maximum (the reduce from −∞, then once more the maximum with −∞) is the row's fold. -/
theorem max_apply (P : Fin 100000) :
    val_main_call3_v2 (F := Ideal) x0 x1 x2 x3 x4 x5 (ix1 P) = rowMax (fun k => val_main_v94 (F := Ideal) x0 x1 x2 x3 x4 x5 (ix2 P k)) := by
  rw [val_main_call3_v2_apply, val_main_call3_v1_apply, val_main_call3_cst_0_apply]
  unfold val_main_call3_v0 val_main_call3_cst
  generalize val_main_v94 (F := Ideal) x0 x1 x2 x3 x4 x5 = Z
  rw [reduceMax_apply]
  exact max_start_rowMax _

/-- The reference's shifted logits at an entry. -/
theorem shifted_apply (P : Fin 100000) (q : Fin 2) :
    val_main_call3_v5 (F := Ideal) x0 x1 x2 x3 x4 x5 (ix2 P q)
      = val_main_v94 (F := Ideal) x0 x1 x2 x3 x4 x5 (ix2 P q) - rowMax (fun k => val_main_v94 (F := Ideal) x0 x1 x2 x3 x4 x5 (ix2 P k)) := by
  rw [val_main_call3_v5_apply, val_main_call3_v4_apply, val_main_call3_v3_apply]
  have e : idx_main_call3_v3 (idx_main_call3_v4 (ix2 P q)) = ix1 P :=
    funext fun a => Fin.ext (by match a with | ⟨0, _⟩ => rfl)
  rw [e, max_apply]
  generalize val_main_v94 (F := Ideal) x0 x1 x2 x3 x4 x5 = Z
  rfl

/-- The reference's log of the row's sum of exponentials at an entry. -/
theorem logsum_apply (P : Fin 100000) (q : Fin 2) :
    val_main_call3_v10 (F := Ideal) x0 x1 x2 x3 x4 x5 (ix2 P q)
      = Ideal.log (∑ k : Fin 2, Ideal.exp (val_main_v94 (F := Ideal) x0 x1 x2 x3 x4 x5 (ix2 P k)
          - rowMax (fun k => val_main_v94 (F := Ideal) x0 x1 x2 x3 x4 x5 (ix2 P k)))) := by
  rw [val_main_call3_v10_apply, val_main_call3_v9_apply, val_main_call3_v8_apply]
  have e : idx_main_call3_v8 (idx_main_call3_v10 (ix2 P q)) = ix1 P :=
    funext fun a => Fin.ext (by match a with | ⟨0, _⟩ => rfl)
  rw [e, val_main_call3_v7_apply, val_main_call3_cst_1_apply]
  have e2 : ∀ k : Fin 2, idx_main_call3_v7 (ix1 P) k = ix2 P k := fun k =>
    funext fun a => Fin.ext (by match a with | ⟨0, _⟩ => rfl | ⟨1, _⟩ => rfl)
  have hs : ∀ k : Fin 2, val_main_call3_v6 (F := Ideal) x0 x1 x2 x3 x4 x5 (idx_main_call3_v7 (ix1 P) k)
      = Ideal.exp (val_main_v94 (F := Ideal) x0 x1 x2 x3 x4 x5 (ix2 P k) - rowMax (fun k => val_main_v94 (F := Ideal) x0 x1 x2 x3 x4 x5 (ix2 P k))) := by
    intro k
    rw [e2, val_main_call3_v6_apply, shifted_apply]
    generalize val_main_v94 (F := Ideal) x0 x1 x2 x3 x4 x5 = Z
    rfl
  rw [Finset.sum_congr rfl fun k _ => hs k]
  generalize val_main_v94 (F := Ideal) x0 x1 x2 x3 x4 x5 = Z
  show Ideal.log (Ideal.ofBits .f32 0x00000000#32 + _) = _
  rw [Ideal.ofBits_zero_f32, zero_add]

/-- The reference's last stage at an entry: the log-softmax of the row of the second aggregation plus the bias. -/
theorem last_apply (P : Fin 100000) (q : Fin 2) :
    val_main_v95 (F := Ideal) x0 x1 x2 x3 x4 x5 (ix2 P q)
      = logSoftmaxRow (fun k => val_main_v91 (F := Ideal) x0 x1 x2 x3 x5 (ix2 P k) + x4 (ix1 k)) q := by
  rw [val_main_v95_apply, shifted_apply, logsum_apply]
  simp only [logits_apply]
  generalize val_main_v91 (F := Ideal) x0 x1 x2 x3 x5 = Bv
  rfl

theorem logSoftmax2_eq :
    val_main_v95 (F := Ideal) x0 x1 x2 x3 x4 x5 = logSoftmax2 (val_main_v91 (F := Ideal) x0 x1 x2 x3 x5) x4 := by
  funext i
  obtain ⟨P, q, rfl⟩ : ∃ (P : Fin 100000) (q : Fin 2), i = ix2 P q := ⟨i 0, i 1, eq_ix2 i⟩
  exact (last_apply x0 x1 x2 x3 x4 x5 P q).trans (logSoftmax2_apply _ _ P q).symm

end Cert.ReferenceIdeal.Stages

end
-- ==== Proof.KernelRun.lean ====
/-
  The idealized kernel's run with its result named.  The program is three grid regions among stretches of host
  operations; the buffer contents at each boundary are a fold from the launch memory, and after the last region every
  buffer holds that fold's last stage.  This module states the run with the result array at that last stage and the
  six argument arrays as launched.
-/
import proofs.«141122_j8796093022906_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel terminates without a fault; the result array ends at the last
    stage of the boundary fold, and the argument arrays end as launched. -/
theorem run_result : θ_run defs (onTc (τ := τ) (main (F := F))) ⟨m, fun _ => 0, ρ⟩ (fun r => ∀ c : Dev nD,
      r.2.mem ((c.tc : Thread nD τ).loc main_v60) = W8 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v60 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.RunValue

end
-- ==== Proof.Glue.lean ====
/-
  The host operations between the three regions of the idealized kernel, read back.  The buffer contents at each
  boundary of the program are a fold from the launch memory.  This module reads the fold at the buffers the regions and
  the later host operations consume: the two index lists (edge sources and targets, each followed by the self loops), the
  per-edge normalisation, the two aggregations (a row gather, a scaling and a scatter-add by target), and the two bias
  rows.  Each is the reference's stage of the same name: the host operations of the two programs are the same operations
  in the same order on the same operands (the reference only repeats the index lists and the normalisation for its
  second layer, and converts one constant from its own format to the same format), so once the operands are identified
  the two terms are one.  With the three regions' values this gives the kernel's result array as the reference's last
  stage of the launch arrays.
-/
import proofs.«141122_j8796093022906_1_alg».proof.Proof.Gen.KernelIdeal.Frame
import proofs.«141122_j8796093022906_1_alg».proof.Proof.RefRead
import proofs.«141122_j8796093022906_1_alg».proof.Proof.Region0
import proofs.«141122_j8796093022906_1_alg».proof.Proof.Region1
import proofs.«141122_j8796093022906_1_alg».proof.Proof.Region2
import proofs.«141122_j8796093022906_1_alg».proof.Proof.RefStages
import proofs.«141122_j8796093022906_1_alg».proof.Proof.KernelRun
import Idealize.ShloMosaic.Lib.StableHlo.Run

set_option maxRecDepth 65536

noncomputable section

namespace Cert.KernelIdeal.Glue

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- A buffer none of a stretch's operations writes holds after the stretch what it held before. -/
local macro "unwritten" ops:ident : tactic => `(tactic|
  (refine StableHlo.after_of_forall_not_mem _ _ (List.forall_iff_forall_mem.mp ?_)
   simp only [$ops:ident, List.flatten_cons, List.flatten_nil, List.append_nil, List.cons_append,
     List.nil_append, List.Forall, StableHlo.nullary_writes, StableHlo.unary_writes, StableHlo.binary_writes, StableHlo.ternary_writes, StableHlo.quaternary_writes, StableHlo.reshape_writes, StableHlo.binaryIndexed_writes, Finset.mem_singleton]
   repeat' apply And.intro
   all_goals exact StableHlo.devRef_ne_of_ne (by decide)))

/-! ## Before region 0: the arguments as launched, the index lists and the normalisation -/

theorem W3_arg0 (c : Dev nD) : W3 m ρ c (Proc.devRef .tc main_arg0) = m ((c : Thread nD τ).loc main_arg0) :=
  calc W3 m ρ c (Proc.devRef .tc main_arg0)
    _ = W2 m ρ c (Proc.devRef .tc main_arg0) := by unwritten hostOps0_2
    _ = W1 m ρ c (Proc.devRef .tc main_arg0) := by unwritten hostOps0_1
    _ = W0 m ρ c (Proc.devRef .tc main_arg0) := by unwritten hostOps0
    _ = m ((c : Thread nD τ).loc main_arg0) := rfl
theorem W3_arg1 (c : Dev nD) : W3 m ρ c (Proc.devRef .tc main_arg1) = m ((c : Thread nD τ).loc main_arg1) :=
  calc W3 m ρ c (Proc.devRef .tc main_arg1)
    _ = W2 m ρ c (Proc.devRef .tc main_arg1) := by unwritten hostOps0_2
    _ = W1 m ρ c (Proc.devRef .tc main_arg1) := by unwritten hostOps0_1
    _ = W0 m ρ c (Proc.devRef .tc main_arg1) := by unwritten hostOps0
    _ = m ((c : Thread nD τ).loc main_arg1) := rfl
theorem W3_arg2 (c : Dev nD) : W3 m ρ c (Proc.devRef .tc main_arg2) = m ((c : Thread nD τ).loc main_arg2) :=
  calc W3 m ρ c (Proc.devRef .tc main_arg2)
    _ = W2 m ρ c (Proc.devRef .tc main_arg2) := by unwritten hostOps0_2
    _ = W1 m ρ c (Proc.devRef .tc main_arg2) := by unwritten hostOps0_1
    _ = W0 m ρ c (Proc.devRef .tc main_arg2) := by unwritten hostOps0
    _ = m ((c : Thread nD τ).loc main_arg2) := rfl
theorem W3_arg3 (c : Dev nD) : W3 m ρ c (Proc.devRef .tc main_arg3) = m ((c : Thread nD τ).loc main_arg3) :=
  calc W3 m ρ c (Proc.devRef .tc main_arg3)
    _ = W2 m ρ c (Proc.devRef .tc main_arg3) := by unwritten hostOps0_2
    _ = W1 m ρ c (Proc.devRef .tc main_arg3) := by unwritten hostOps0_1
    _ = W0 m ρ c (Proc.devRef .tc main_arg3) := by unwritten hostOps0
    _ = m ((c : Thread nD τ).loc main_arg3) := rfl
theorem W3_arg4 (c : Dev nD) : W3 m ρ c (Proc.devRef .tc main_arg4) = m ((c : Thread nD τ).loc main_arg4) :=
  calc W3 m ρ c (Proc.devRef .tc main_arg4)
    _ = W2 m ρ c (Proc.devRef .tc main_arg4) := by unwritten hostOps0_2
    _ = W1 m ρ c (Proc.devRef .tc main_arg4) := by unwritten hostOps0_1
    _ = W0 m ρ c (Proc.devRef .tc main_arg4) := by unwritten hostOps0
    _ = m ((c : Thread nD τ).loc main_arg4) := rfl

/-- The edge sources followed by the self loops: the reference's first index list. -/
theorem W1_src (c : Dev nD) : W1 m ρ c (Proc.devRef .tc main_v5)
    = Cert.ReferenceIdeal.ReadP.val_main_v6 (F := Ideal) (m ((c : Thread nD τ).loc main_arg5)) := by
  show StableHlo.after hostOps0 (W0 m ρ c) (Proc.devRef .tc main_v5) = _
  after_results_simp
  rfl

/-- The edge targets followed by the self loops: the reference's second index list. -/
theorem W1_dst (c : Dev nD) : W1 m ρ c (Proc.devRef .tc main_v6)
    = Cert.ReferenceIdeal.ReadP.val_main_v7 (F := Ideal) (m ((c : Thread nD τ).loc main_arg5)) := by
  show StableHlo.after hostOps0 (W0 m ρ c) (Proc.devRef .tc main_v6) = _
  after_results_simp
  rfl

/-- Which nodes have a positive degree (the degree: one per edge into the node, self loop included). -/
theorem W1_pos (c : Dev nD) : W1 m ρ c (Proc.devRef .tc main_v12)
    = Cert.ReferenceIdeal.ReadP.val_main_v13 (F := Ideal) (m ((c : Thread nD τ).loc main_arg5)) := by
  show StableHlo.after hostOps0 (W0 m ρ c) (Proc.devRef .tc main_v12) = _
  after_results_simp
  rfl

/-- The inverse square roots of the degrees. -/
theorem W1_rsq (c : Dev nD) : W1 m ρ c (Proc.devRef .tc main_v13)
    = Cert.ReferenceIdeal.ReadP.val_main_v14 (F := Ideal) (m ((c : Thread nD τ).loc main_arg5)) := by
  show StableHlo.after hostOps0 (W0 m ρ c) (Proc.devRef .tc main_v13) = _
  after_results_simp
  rfl

/-- The zero that stands where a degree is not positive. -/
theorem W1_zero (c : Dev nD) : W1 m ρ c (Proc.devRef .tc main_cst_2)
    = Cert.ReferenceIdeal.ReadP.val_main_cst_2 (F := Ideal) := by
  show StableHlo.after hostOps0 (W0 m ρ c) (Proc.devRef .tc main_cst_2) = _
  after_results_simp
  rfl

/-- The inverse square-root degrees, zero where the degree is not positive: the reference's (which first converts the
    zero from its format to the same format). -/
theorem W2_dinv (c : Dev nD) : W2 m ρ c (Proc.devRef .tc main_v14)
    = Cert.ReferenceIdeal.ReadP.val_main_v15 (F := Ideal) (m ((c : Thread nD τ).loc main_arg5)) := by
  show StableHlo.after hostOps0_1 (W1 m ρ c) (Proc.devRef .tc main_v14) = _
  have hp := W1_pos m ρ c
  have hr := W1_rsq m ρ c
  have hz := W1_zero m ρ c
  generalize W1 m ρ c = U at hp hr hz ⊢
  after_results_simp
  rw [hp, hr, hz]
  simp only [Cert.ReferenceIdeal.ReadP.val_main_call0_v0, Cert.ReferenceIdeal.ReadP.val_main_call0_v1, Cert.ReferenceIdeal.ReadP.val_main_v15]
  generalize Cert.ReferenceIdeal.ReadP.val_main_v13 (F := Ideal) (m ((c : Thread nD τ).loc main_arg5)) = P
  generalize Cert.ReferenceIdeal.ReadP.val_main_v14 (F := Ideal) (m ((c : Thread nD τ).loc main_arg5)) = Q
  generalize Cert.ReferenceIdeal.ReadP.val_main_cst_2 (F := Ideal) = Z
  have e12 : ∀ v, (TRef.of (sig := sig) (T := ⟨S100000, .i1⟩) main_v12).ofBuf (Val := Elt Ideal) v = v := fun _ => rfl
  have e13 : ∀ v, (TRef.of (sig := sig) (T := ⟨S100000, .f32⟩) main_v13).ofBuf (Val := Elt Ideal) v = v := fun _ => rfl
  have e14 : ∀ v, (TRef.of (sig := sig) (T := ⟨S100000, .f32⟩) main_v14).toBuf (Val := Elt Ideal) v = v := fun _ => rfl
  have ec0 : ∀ v, (TRef.of (sig := sig) (T := ⟨S100000, .f32⟩) main_call0_v0).ofBuf (Val := Elt Ideal)
      ((TRef.of (sig := sig) (T := ⟨S100000, .f32⟩) main_call0_v0).toBuf v) = v := fun _ => rfl
  have ecst : ∀ v, (TRef.of (sig := sig) (T := ⟨S_, .f32⟩) main_cst_2).ofBuf (Val := Elt Ideal) v = v := fun _ => rfl
  rw [e14, e12, e13, ec0, ecst]
  rfl

theorem W2_src (c : Dev nD) : W2 m ρ c (Proc.devRef .tc main_v5)
    = Cert.ReferenceIdeal.ReadP.val_main_v6 (F := Ideal) (m ((c : Thread nD τ).loc main_arg5)) :=
  (by unwritten hostOps0_1 : W2 m ρ c (Proc.devRef .tc main_v5) = W1 m ρ c (Proc.devRef .tc main_v5)).trans (W1_src m ρ c)

theorem W2_dst (c : Dev nD) : W2 m ρ c (Proc.devRef .tc main_v6)
    = Cert.ReferenceIdeal.ReadP.val_main_v7 (F := Ideal) (m ((c : Thread nD τ).loc main_arg5)) :=
  (by unwritten hostOps0_1 : W2 m ρ c (Proc.devRef .tc main_v6) = W1 m ρ c (Proc.devRef .tc main_v6)).trans (W1_dst m ρ c)

/-- The per-edge normalisation, the product of the two end points' inverse square-root degrees: the reference's. -/
theorem W3_norm (c : Dev nD) : W3 m ρ c (Proc.devRef .tc main_v29)
    = Cert.ReferenceIdeal.ReadP.val_main_v30 (F := Ideal) (m ((c : Thread nD τ).loc main_arg5)) := by
  show StableHlo.after hostOps0_2 (W2 m ρ c) (Proc.devRef .tc main_v29) = _
  have hd := W2_dinv m ρ c
  have hs := W2_src m ρ c
  have ht := W2_dst m ρ c
  generalize W2 m ρ c = U at hd hs ht ⊢
  after_results_simp
  rw [hd, hs, ht]
  simp only [Cert.ReferenceIdeal.ReadP.val_main_c, Cert.ReferenceIdeal.ReadP.val_main_v16, Cert.ReferenceIdeal.ReadP.val_main_v17, Cert.ReferenceIdeal.ReadP.val_main_c_3, Cert.ReferenceIdeal.ReadP.val_main_v18, Cert.ReferenceIdeal.ReadP.val_main_v19, Cert.ReferenceIdeal.ReadP.val_main_v20, Cert.ReferenceIdeal.ReadP.val_main_v21, Cert.ReferenceIdeal.ReadP.val_main_v22, Cert.ReferenceIdeal.ReadP.val_main_c_4, Cert.ReferenceIdeal.ReadP.val_main_v23, Cert.ReferenceIdeal.ReadP.val_main_v24, Cert.ReferenceIdeal.ReadP.val_main_c_5, Cert.ReferenceIdeal.ReadP.val_main_v25, Cert.ReferenceIdeal.ReadP.val_main_v26, Cert.ReferenceIdeal.ReadP.val_main_v27, Cert.ReferenceIdeal.ReadP.val_main_v28, Cert.ReferenceIdeal.ReadP.val_main_v29, Cert.ReferenceIdeal.ReadP.val_main_v30]
  generalize Cert.ReferenceIdeal.ReadP.val_main_v15 (F := Ideal) (m ((c : Thread nD τ).loc main_arg5)) = D
  generalize Cert.ReferenceIdeal.ReadP.val_main_v6 (F := Ideal) (m ((c : Thread nD τ).loc main_arg5)) = S
  generalize Cert.ReferenceIdeal.ReadP.val_main_v7 (F := Ideal) (m ((c : Thread nD τ).loc main_arg5)) = T
  rfl

theorem W3_src (c : Dev nD) : W3 m ρ c (Proc.devRef .tc main_v5)
    = Cert.ReferenceIdeal.ReadP.val_main_v6 (F := Ideal) (m ((c : Thread nD τ).loc main_arg5)) :=
  (by unwritten hostOps0_2 : W3 m ρ c (Proc.devRef .tc main_v5) = W2 m ρ c (Proc.devRef .tc main_v5)).trans (W2_src m ρ c)

theorem W3_dst (c : Dev nD) : W3 m ρ c (Proc.devRef .tc main_v6)
    = Cert.ReferenceIdeal.ReadP.val_main_v7 (F := Ideal) (m ((c : Thread nD τ).loc main_arg5)) :=
  (by unwritten hostOps0_2 : W3 m ρ c (Proc.devRef .tc main_v6) = W2 m ρ c (Proc.devRef .tc main_v6)).trans (W2_dst m ρ c)

/-! ## Region 0 and the first aggregation -/

/-- After region 0 its output array is the node features times the first weight matrix. -/
theorem W4_h1 (c : Dev nD) : W4 m ρ c (Proc.devRef .tc main_v30)
    = Cert.ReferenceIdeal.ReadP.val_main_v0 (F := Ideal) (m ((c : Thread nD τ).loc main_arg0)) (m ((c : Thread nD τ).loc main_arg1)) :=
  (W4_arr m ρ c 2).trans ((Cert.KernelIdeal.Region0.final (V3 m ρ) c).trans
    (congrArg₂ (Cert.ReferenceIdeal.ReadP.val_main_v0 (F := Ideal)) (W3_arg0 m ρ c) (W3_arg1 m ρ c)))

/-- The first aggregation is the reference's. -/
theorem W5_agg1 (c : Dev nD) : W5 m ρ c (Proc.devRef .tc main_v43)
    = Cert.ReferenceIdeal.ReadP.val_main_v43 (F := Ideal) (m ((c : Thread nD τ).loc main_arg0)) (m ((c : Thread nD τ).loc main_arg1)) (m ((c : Thread nD τ).loc main_arg5)) := by
  show StableHlo.after hostOps1 (W4 m ρ c) (Proc.devRef .tc main_v43) = _
  after_results_simp
  rw [W4_h1 m ρ c, W4_of_ne m ρ c main_v5 (by decide), W3_src m ρ c, W4_of_ne m ρ c main_v6 (by decide), W3_dst m ρ c,
    W4_of_ne m ρ c main_v29 (by decide), W3_norm m ρ c]
  rfl

/-- The first bias as a [1, 16] row. -/
theorem W5_bias1 (c : Dev nD) : W5 m ρ c (Proc.devRef .tc main_v44)
    = shapeCast S1x16 (m ((c : Thread nD τ).loc main_arg2)) shapeCasts_S16_S1x16 := by
  show StableHlo.after hostOps1 (W4 m ρ c) (Proc.devRef .tc main_v44) = _
  after_results_simp
  rw [W4_of_ne m ρ c main_arg2 (by decide), W3_arg2 m ρ c]
  rfl

theorem W5_arg3 (c : Dev nD) : W5 m ρ c (Proc.devRef .tc main_arg3) = m ((c : Thread nD τ).loc main_arg3) :=
  calc W5 m ρ c (Proc.devRef .tc main_arg3)
    _ = W4 m ρ c (Proc.devRef .tc main_arg3) := by unwritten hostOps1
    _ = W3 m ρ c (Proc.devRef .tc main_arg3) := W4_of_ne m ρ c main_arg3 (by decide)
    _ = _ := W3_arg3 m ρ c

/-! ## Region 1 and the second aggregation -/

/-- After region 1 its output array is the reference's stage before the second aggregation. -/
theorem W6_h2 (c : Dev nD) : W6 m ρ c (Proc.devRef .tc main_v45)
    = Cert.ReferenceIdeal.ReadP.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg5)) :=
  (W6_arr m ρ c 3).trans ((Cert.KernelIdeal.Region1.final (V5 m ρ)
      (Cert.ReferenceIdeal.ReadP.val_main_v43 (F := Ideal) (m ((c : Thread nD τ).loc main_arg0)) (m ((c : Thread nD τ).loc main_arg1)) (m ((c : Thread nD τ).loc main_arg5)))
      (m ((c : Thread nD τ).loc main_arg2)) (m ((c : Thread nD τ).loc main_arg3)) c
      (W5_agg1 m ρ c) (W5_bias1 m ρ c) (W5_arg3 m ρ c)).trans
    (Cert.ReferenceIdeal.Stages.dense2_eq _ _ _ _ _).symm)

theorem W6_src (c : Dev nD) : W6 m ρ c (Proc.devRef .tc main_v5)
    = Cert.ReferenceIdeal.ReadP.val_main_v6 (F := Ideal) (m ((c : Thread nD τ).loc main_arg5)) :=
  calc W6 m ρ c (Proc.devRef .tc main_v5)
    _ = W5 m ρ c (Proc.devRef .tc main_v5) := W6_of_ne m ρ c main_v5 (by decide)
    _ = W4 m ρ c (Proc.devRef .tc main_v5) := by unwritten hostOps1
    _ = W3 m ρ c (Proc.devRef .tc main_v5) := W4_of_ne m ρ c main_v5 (by decide)
    _ = _ := W3_src m ρ c

theorem W6_dst (c : Dev nD) : W6 m ρ c (Proc.devRef .tc main_v6)
    = Cert.ReferenceIdeal.ReadP.val_main_v7 (F := Ideal) (m ((c : Thread nD τ).loc main_arg5)) :=
  calc W6 m ρ c (Proc.devRef .tc main_v6)
    _ = W5 m ρ c (Proc.devRef .tc main_v6) := W6_of_ne m ρ c main_v6 (by decide)
    _ = W4 m ρ c (Proc.devRef .tc main_v6) := by unwritten hostOps1
    _ = W3 m ρ c (Proc.devRef .tc main_v6) := W4_of_ne m ρ c main_v6 (by decide)
    _ = _ := W3_dst m ρ c

theorem W6_norm (c : Dev nD) : W6 m ρ c (Proc.devRef .tc main_v29)
    = Cert.ReferenceIdeal.ReadP.val_main_v30 (F := Ideal) (m ((c : Thread nD τ).loc main_arg5)) :=
  calc W6 m ρ c (Proc.devRef .tc main_v29)
    _ = W5 m ρ c (Proc.devRef .tc main_v29) := W6_of_ne m ρ c main_v29 (by decide)
    _ = W4 m ρ c (Proc.devRef .tc main_v29) := by unwritten hostOps1
    _ = W3 m ρ c (Proc.devRef .tc main_v29) := W4_of_ne m ρ c main_v29 (by decide)
    _ = _ := W3_norm m ρ c

theorem W6_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := by unwritten hostOps1
    _ = W3 m ρ c (Proc.devRef .tc main_arg4) := W4_of_ne m ρ c main_arg4 (by decide)
    _ = _ := W3_arg4 m ρ c

/-- The second aggregation is the reference's. -/
theorem W7_agg2 (c : Dev nD) : W7 m ρ c (Proc.devRef .tc main_v58)
    = Cert.ReferenceIdeal.ReadP.val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg5)) := by
  show StableHlo.after hostOps2 (W6 m ρ c) (Proc.devRef .tc main_v58) = _
  after_results_simp
  rw [W6_h2 m ρ c, W6_src m ρ c, W6_dst m ρ c, W6_norm m ρ c]
  rfl

/-- The second bias as a [1, 2] row. -/
theorem W7_bias2 (c : Dev nD) : W7 m ρ c (Proc.devRef .tc main_v59)
    = shapeCast S1x2 (m ((c : Thread nD τ).loc main_arg4)) shapeCasts_S2_S1x2 := by
  show StableHlo.after hostOps2 (W6 m ρ c) (Proc.devRef .tc main_v59) = _
  after_results_simp
  rw [W6_arg4 m ρ c]
  rfl

/-! ## Region 2: the result -/

/-- The kernel's result array is the reference's last stage of the launch arrays. -/
theorem W8_result (c : Dev nD) : W8 m ρ c (Proc.devRef .tc main_v60)
    = Cert.ReferenceIdeal.ReadP.val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W8_arr m ρ c 2).trans ((Cert.KernelIdeal.Region2.final (V7 m ρ)
      (Cert.ReferenceIdeal.ReadP.val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg5)))
      (m ((c : Thread nD τ).loc main_arg4)) c (W7_agg2 m ρ c) (W7_bias2 m ρ c)).trans
    (Cert.ReferenceIdeal.Stages.logSoftmax2_eq _ _ _ _ _ _).symm)

/-! ## The run -/

/-- Every weakly fair execution of the idealized kernel terminates without a fault, with the result array at the
    reference's last stage of the launch arrays and the argument arrays as launched. -/
theorem run : θ_run defs (onTc (τ := τ) (main (F := Ideal))) ⟨m, fun _ => 0, ρ⟩ (fun r => ∀ c : Dev nD,
      r.2.mem ((c.tc : Thread nD τ).loc main_v60)
        = Cert.ReferenceIdeal.ReadP.val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (W8_result m ρ c), (h c).2⟩)
    (Cert.KernelIdeal.RunValue.run_result m ρ)

end Cert.KernelIdeal.Glue

end
-- ==== Proof.RefValue.lean ====
/-
  The idealized reference's run, read back.  Its @main is 138 host operations in a row; every weakly fair execution
  ends with each buffer at the fold of the operations' results over the launch contents.  The fold is read in ten
  stretches, cut where few arrays are live — the two index lists, the inverse square-root degrees, the normalisation, an
  aggregation, a dense stage — and at each cut every live array is named by the stage function of the operation that
  wrote it, so that no term is deeper than one stretch.  The run is then stated with the result array at the last stage
  of the launch arrays, and the six argument arrays as launched.
-/
import proofs.«141122_j8796093022906_1_alg».proof.Proof.RefRun
import proofs.«141122_j8796093022906_1_alg».proof.Proof.RefRead
import Idealize.ShloMosaic.Lib.Pipeline.Frame

set_option maxRecDepth 65536

noncomputable section

namespace Cert.ReferenceIdeal.RefValue

open Cert.ReferenceIdeal Cert.ReferenceIdeal.Gen Idealize.ShloMosaic Idealize.ShloMosaic.TcCoe Idealize.SL.Sem Idealize.ShloMosaic.StableHlo

section Lists

variable {F : FTy → Type} [FloatOps F]

/-- Stretch 1 of the reference's operations (ending at `main_v7`). -/
abbrev opsS1 : List (HloOp τ sig (Elt F)) :=
  [ binary main_arg0 main_arg1 main_v0 ((fun l r => Host.dotGeneral dot_S100000x128_S128x16_S100000x16_1_0_0_1_n_n none l r) : (⟨S100000x128, .f32⟩ : BufTy).Contents (Elt F) → (⟨S128x16, .f32⟩ : BufTy).Contents (Elt F) → (⟨S100000x16, .f32⟩ : BufTy).Contents (Elt F)),
    unary main_arg5 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    unary main_arg5 main_v3 ((extractStridedSlice S1x3200000 ![1, 0] · slices_S2x3200000_S1x3200000_1_0) : (⟨S2x3200000, .i32⟩ : BufTy).Contents (Elt F) → (⟨S1x3200000, .i32⟩ : BufTy).Contents (Elt F)),
    reshape main_v3 main_v4 rfl shapeCasts_S1x3200000_S3200000,
    nullary main_v5 (iotaInDim S100000 32 0),
    binary main_v2 main_v5 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    binary main_v4 main_v5 main_v7 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)) ]

/-- Stretch 2 of the reference's operations (ending at `main_v15`). -/
abbrev opsS2 : List (HloOp τ sig (Elt F)) :=
  [ nullary main_cst (constant S_ .f32 0x3F800000#32),
    unary main_cst main_v8 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v7 main_v10 (broadcastInDim S3300000x1 ![0] bcast_S3300000_S3300000x1_0 : (⟨S3300000, .i32⟩ : BufTy).Contents (Elt F) → (⟨S3300000x1, .i32⟩ : BufTy).Contents (Elt F)),
    ternary main_v9 main_v10 main_v8 main_v11 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select ]

/-- Stretch 3 of the reference's operations (ending at `main_v30`). -/
abbrev opsS3 : List (HloOp τ sig (Elt F)) :=
  [ nullary main_c (constantI S_ 32 0#32),
    unary main_c main_v16 (broadcastInDim S3300000 ![] bcast_S_S3300000 : (⟨S_, .i32⟩ : BufTy).Contents (Elt F) → (⟨S3300000, .i32⟩ : BufTy).Contents (Elt F)),
    binary main_v6 main_v16 main_v17 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v18 (broadcastInDim S3300000 ![] bcast_S_S3300000 : (⟨S_, .i32⟩ : BufTy).Contents (Elt F) → (⟨S3300000, .i32⟩ : BufTy).Contents (Elt F)),
    binary main_v6 main_v18 main_v19 (addi : (⟨S3300000, .i32⟩ : BufTy).Contents (Elt F) → (⟨S3300000, .i32⟩ : BufTy).Contents (Elt F) → (⟨S3300000, .i32⟩ : BufTy).Contents (Elt F)),
    ternary main_v17 main_v19 main_v6 main_v20 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v20 main_v21 (broadcastInDim S3300000x1 ![0] bcast_S3300000_S3300000x1_0 : (⟨S3300000, .i32⟩ : BufTy).Contents (Elt F) → (⟨S3300000x1, .i32⟩ : BufTy).Contents (Elt F)),
    binary main_v15 main_v21 main_v22 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_4 (constantI S_ 32 0#32),
    unary main_c_4 main_v23 (broadcastInDim S3300000 ![] bcast_S_S3300000 : (⟨S_, .i32⟩ : BufTy).Contents (Elt F) → (⟨S3300000, .i32⟩ : BufTy).Contents (Elt F)),
    binary main_v7 main_v23 main_v24 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v25 (broadcastInDim S3300000 ![] bcast_S_S3300000 : (⟨S_, .i32⟩ : BufTy).Contents (Elt F) → (⟨S3300000, .i32⟩ : BufTy).Contents (Elt F)),
    binary main_v7 main_v25 main_v26 (addi : (⟨S3300000, .i32⟩ : BufTy).Contents (Elt F) → (⟨S3300000, .i32⟩ : BufTy).Contents (Elt F) → (⟨S3300000, .i32⟩ : BufTy).Contents (Elt F)),
    ternary main_v24 main_v26 main_v7 main_v27 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v27 main_v28 (broadcastInDim S3300000x1 ![0] bcast_S3300000_S3300000x1_0 : (⟨S3300000, .i32⟩ : BufTy).Contents (Elt F) → (⟨S3300000x1, .i32⟩ : BufTy).Contents (Elt F)),
    binary main_v15 main_v28 main_v29 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v22 main_v29 main_v30 (mulf : (⟨S3300000, .f32⟩ : BufTy).Contents (Elt F) → (⟨S3300000, .f32⟩ : BufTy).Contents (Elt F) → (⟨S3300000, .f32⟩ : BufTy).Contents (Elt F)) ]

/-- Stretch 4 of the reference's operations (ending at `main_v43`). -/
abbrev opsS4 : List (HloOp τ sig (Elt F)) :=
  [ nullary main_c_6 (constantI S_ 32 0#32),
    unary main_c_6 main_v31 (broadcastInDim S3300000 ![] bcast_S_S3300000 : (⟨S_, .i32⟩ : BufTy).Contents (Elt F) → (⟨S3300000, .i32⟩ : BufTy).Contents (Elt F)),
    binary main_v6 main_v31 main_v32 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v33 (broadcastInDim S3300000 ![] bcast_S_S3300000 : (⟨S_, .i32⟩ : BufTy).Contents (Elt F) → (⟨S3300000, .i32⟩ : BufTy).Contents (Elt F)),
    binary main_v6 main_v33 main_v34 (addi : (⟨S3300000, .i32⟩ : BufTy).Contents (Elt F) → (⟨S3300000, .i32⟩ : BufTy).Contents (Elt F) → (⟨S3300000, .i32⟩ : BufTy).Contents (Elt F)),
    ternary main_v32 main_v34 main_v6 main_v35 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v35 main_v36 (broadcastInDim S3300000x1 ![0] bcast_S3300000_S3300000x1_0 : (⟨S3300000, .i32⟩ : BufTy).Contents (Elt F) → (⟨S3300000x1, .i32⟩ : BufTy).Contents (Elt F)),
    binary main_v0 main_v36 main_v37 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v30 main_v38 (broadcastInDim S3300000x1 ![0] bcast_S3300000_S3300000x1_0 : (⟨S3300000, .f32⟩ : BufTy).Contents (Elt F) → (⟨S3300000x1, .f32⟩ : BufTy).Contents (Elt F)),
    unary main_v38 main_v39 (broadcastInDim S3300000x16 ![0, 1] bcast_S3300000x1_S3300000x16_0_1 : (⟨S3300000x1, .f32⟩ : BufTy).Contents (Elt F) → (⟨S3300000x16, .f32⟩ : BufTy).Contents (Elt F)),
    binary main_v37 main_v39 main_v40 (mulf : (⟨S3300000x16, .f32⟩ : BufTy).Contents (Elt F) → (⟨S3300000x16, .f32⟩ : BufTy).Contents (Elt F) → (⟨S3300000x16, .f32⟩ : BufTy).Contents (Elt F)),
    nullary main_cst_8 (constant S_ .f32 0x00000000#32),
    unary main_cst_8 main_v41 (broadcastInDim S100000x16 ![] bcast_S_S100000x16 : (⟨S_, .f32⟩ : BufTy).Contents (Elt F) → (⟨S100000x16, .f32⟩ : BufTy).Contents (Elt F)),
    unary main_v7 main_v42 (broadcastInDim S3300000x1 ![0] bcast_S3300000_S3300000x1_0 : (⟨S3300000, .i32⟩ : BufTy).Contents (Elt F) → (⟨S3300000x1, .i32⟩ : BufTy).Contents (Elt F)),
    ternary main_v41 main_v42 main_v40 main_v43 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)) ]

/-- Stretch 5 of the reference's operations (ending at `main_v48`). -/
abbrev opsS5 : List (HloOp τ sig (Elt F)) :=
  [ unary main_arg2 main_v44 (broadcastInDim S1x16 ![1] bcast_S16_S1x16_1 : (⟨S16, .f32⟩ : BufTy).Contents (Elt F) → (⟨S1x16, .f32⟩ : BufTy).Contents (Elt F)),
    unary main_v44 main_v45 (broadcastInDim S100000x16 ![0, 1] bcast_S1x16_S100000x16_0_1 : (⟨S1x16, .f32⟩ : BufTy).Contents (Elt F) → (⟨S100000x16, .f32⟩ : BufTy).Contents (Elt F)),
    binary main_v43 main_v45 main_v46 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v46) (TRef.of (T := ⟨S100000x16, .f32⟩) main_call1_v0) (TRef.of (T := ⟨S100000x16, .f32⟩) main_v47) maximumf,
    binary main_v47 main_arg3 main_v48 ((fun l r => Host.dotGeneral dot_S100000x16_S16x2_S100000x2_1_0_0_1_n_n none l r) : (⟨S100000x16, .f32⟩ : BufTy).Contents (Elt F) → (⟨S16x2, .f32⟩ : BufTy).Contents (Elt F) → (⟨S100000x2, .f32⟩ : BufTy).Contents (Elt F)) ]

/-- Stretch 6 of the reference's operations (ending at `main_v55`). -/
abbrev opsS6 : List (HloOp τ sig (Elt F)) :=
  [ unary main_arg5 main_v49 ((extractStridedSlice S1x3200000 ![0, 0] · slices_S2x3200000_S1x3200000_0_0) : (⟨S2x3200000, .i32⟩ : BufTy).Contents (Elt F) → (⟨S1x3200000, .i32⟩ : BufTy).Contents (Elt F)),
    reshape main_v49 main_v50 rfl shapeCasts_S1x3200000_S3200000,
    unary main_arg5 main_v51 ((extractStridedSlice S1x3200000 ![1, 0] · slices_S2x3200000_S1x3200000_1_0) : (⟨S2x3200000, .i32⟩ : BufTy).Contents (Elt F) → (⟨S1x3200000, .i32⟩ : BufTy).Contents (Elt F)),
    reshape main_v51 main_v52 rfl shapeCasts_S1x3200000_S3200000,
    nullary main_v53 (iotaInDim S100000 32 0),
    binary main_v50 main_v53 main_v54 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    binary main_v52 main_v53 main_v55 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)) ]

/-- Stretch 7 of the reference's operations (ending at `main_v63`). -/
abbrev opsS7 : List (HloOp τ sig (Elt F)) :=
  [ nullary main_cst_9 (constant S_ .f32 0x3F800000#32),
    unary main_cst_9 main_v56 (broadcastInDim S3300000 ![] bcast_S_S3300000 : (⟨S_, .f32⟩ : BufTy).Contents (Elt F) → (⟨S3300000, .f32⟩ : BufTy).Contents (Elt F)),
    nullary main_cst_10 (constant S_ .f32 0x00000000#32),
    unary main_cst_10 main_v57 (broadcastInDim S100000 ![] bcast_S_S100000 : (⟨S_, .f32⟩ : BufTy).Contents (Elt F) → (⟨S100000, .f32⟩ : BufTy).Contents (Elt F)),
    unary main_v55 main_v58 (broadcastInDim S3300000x1 ![0] bcast_S3300000_S3300000x1_0 : (⟨S3300000, .i32⟩ : BufTy).Contents (Elt F) → (⟨S3300000x1, .i32⟩ : BufTy).Contents (Elt F)),
    ternary main_v57 main_v58 main_v56 main_v59 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_11 (constant S_ .f32 0x00000000#32),
    unary main_cst_11 main_v60 (broadcastInDim S100000 ![] bcast_S_S100000 : (⟨S_, .f32⟩ : BufTy).Contents (Elt F) → (⟨S100000, .f32⟩ : BufTy).Contents (Elt F)),
    binary main_v59 main_v60 main_v61 (cmpf .ogt : (⟨S100000, .f32⟩ : BufTy).Contents (Elt F) → (⟨S100000, .f32⟩ : BufTy).Contents (Elt F) → (⟨S100000, .i1⟩ : BufTy).Contents (Elt F)),
    unary main_v59 main_v62 (Host.rsqrt : (⟨S100000, .f32⟩ : BufTy).Contents (Elt F) → (⟨S100000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v61) (TRef.of (T := ⟨S100000, .f32⟩) main_v62) (TRef.of (T := ⟨S100000, .f32⟩) main_call2_v1) (TRef.of (T := ⟨S100000, .f32⟩) main_v63) select ]

/-- Stretch 8 of the reference's operations (ending at `main_v78`). -/
abbrev opsS8 : List (HloOp τ sig (Elt F)) :=
  [ nullary main_c_13 (constantI S_ 32 0#32),
    unary main_c_13 main_v64 (broadcastInDim S3300000 ![] bcast_S_S3300000 : (⟨S_, .i32⟩ : BufTy).Contents (Elt F) → (⟨S3300000, .i32⟩ : BufTy).Contents (Elt F)),
    binary main_v54 main_v64 main_v65 (cmpi .slt : (⟨S3300000, .i32⟩ : BufTy).Contents (Elt F) → (⟨S3300000, .i32⟩ : BufTy).Contents (Elt F) → (⟨S3300000, .i1⟩ : BufTy).Contents (Elt F)),
    nullary main_c_14 (constantI S_ 32 100000#32),
    unary main_c_14 main_v66 (broadcastInDim S3300000 ![] bcast_S_S3300000 : (⟨S_, .i32⟩ : BufTy).Contents (Elt F) → (⟨S3300000, .i32⟩ : BufTy).Contents (Elt F)),
    binary main_v54 main_v66 main_v67 (addi : (⟨S3300000, .i32⟩ : BufTy).Contents (Elt F) → (⟨S3300000, .i32⟩ : BufTy).Contents (Elt F) → (⟨S3300000, .i32⟩ : BufTy).Contents (Elt F)),
    ternary main_v65 main_v67 main_v54 main_v68 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v68 main_v69 (broadcastInDim S3300000x1 ![0] bcast_S3300000_S3300000x1_0 : (⟨S3300000, .i32⟩ : BufTy).Contents (Elt F) → (⟨S3300000x1, .i32⟩ : BufTy).Contents (Elt F)),
    binary main_v63 main_v69 main_v70 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_15 (constantI S_ 32 0#32),
    unary main_c_15 main_v71 (broadcastInDim S3300000 ![] bcast_S_S3300000 : (⟨S_, .i32⟩ : BufTy).Contents (Elt F) → (⟨S3300000, .i32⟩ : BufTy).Contents (Elt F)),
    binary main_v55 main_v71 main_v72 (cmpi .slt : (⟨S3300000, .i32⟩ : BufTy).Contents (Elt F) → (⟨S3300000, .i32⟩ : BufTy).Contents (Elt F) → (⟨S3300000, .i1⟩ : BufTy).Contents (Elt F)),
    nullary main_c_16 (constantI S_ 32 100000#32),
    unary main_c_16 main_v73 (broadcastInDim S3300000 ![] bcast_S_S3300000 : (⟨S_, .i32⟩ : BufTy).Contents (Elt F) → (⟨S3300000, .i32⟩ : BufTy).Contents (Elt F)),
    binary main_v55 main_v73 main_v74 (addi : (⟨S3300000, .i32⟩ : BufTy).Contents (Elt F) → (⟨S3300000, .i32⟩ : BufTy).Contents (Elt F) → (⟨S3300000, .i32⟩ : BufTy).Contents (Elt F)),
    ternary main_v72 main_v74 main_v55 main_v75 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v75 main_v76 (broadcastInDim S3300000x1 ![0] bcast_S3300000_S3300000x1_0 : (⟨S3300000, .i32⟩ : BufTy).Contents (Elt F) → (⟨S3300000x1, .i32⟩ : BufTy).Contents (Elt F)),
    binary main_v63 main_v76 main_v77 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v70 main_v77 main_v78 (mulf : (⟨S3300000, .f32⟩ : BufTy).Contents (Elt F) → (⟨S3300000, .f32⟩ : BufTy).Contents (Elt F) → (⟨S3300000, .f32⟩ : BufTy).Contents (Elt F)) ]

/-- Stretch 9 of the reference's operations (ending at `main_v91`). -/
abbrev opsS9 : List (HloOp τ sig (Elt F)) :=
  [ nullary main_c_17 (constantI S_ 32 0#32),
    unary main_c_17 main_v79 (broadcastInDim S3300000 ![] bcast_S_S3300000 : (⟨S_, .i32⟩ : BufTy).Contents (Elt F) → (⟨S3300000, .i32⟩ : BufTy).Contents (Elt F)),
    binary main_v54 main_v79 main_v80 (cmpi .slt : (⟨S3300000, .i32⟩ : BufTy).Contents (Elt F) → (⟨S3300000, .i32⟩ : BufTy).Contents (Elt F) → (⟨S3300000, .i1⟩ : BufTy).Contents (Elt F)),
    nullary main_c_18 (constantI S_ 32 100000#32),
    unary main_c_18 main_v81 (broadcastInDim S3300000 ![] bcast_S_S3300000 : (⟨S_, .i32⟩ : BufTy).Contents (Elt F) → (⟨S3300000, .i32⟩ : BufTy).Contents (Elt F)),
    binary main_v54 main_v81 main_v82 (addi : (⟨S3300000, .i32⟩ : BufTy).Contents (Elt F) → (⟨S3300000, .i32⟩ : BufTy).Contents (Elt F) → (⟨S3300000, .i32⟩ : BufTy).Contents (Elt F)),
    ternary main_v80 main_v82 main_v54 main_v83 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v83 main_v84 (broadcastInDim S3300000x1 ![0] bcast_S3300000_S3300000x1_0 : (⟨S3300000, .i32⟩ : BufTy).Contents (Elt F) → (⟨S3300000x1, .i32⟩ : BufTy).Contents (Elt F)),
    binary main_v48 main_v84 main_v85 ((fun x i => Host.gather gather_S100000x2_S3300000x1_S3300000x2_1_0_n_n_0_1_12 x i) : (⟨S100000x2, .f32⟩ : BufTy).Contents (Elt F) → (⟨S3300000x1, .i32⟩ : BufTy).Contents (Elt F) → (⟨S3300000x2, .f32⟩ : BufTy).Contents (Elt F)),
    unary main_v78 main_v86 (broadcastInDim S3300000x1 ![0] bcast_S3300000_S3300000x1_0 : (⟨S3300000, .f32⟩ : BufTy).Contents (Elt F) → (⟨S3300000x1, .f32⟩ : BufTy).Contents (Elt F)),
    unary main_v86 main_v87 (broadcastInDim S3300000x2 ![0, 1] bcast_S3300000x1_S3300000x2_0_1 : (⟨S3300000x1, .f32⟩ : BufTy).Contents (Elt F) → (⟨S3300000x2, .f32⟩ : BufTy).Contents (Elt F)),
    binary main_v85 main_v87 main_v88 (mulf : (⟨S3300000x2, .f32⟩ : BufTy).Contents (Elt F) → (⟨S3300000x2, .f32⟩ : BufTy).Contents (Elt F) → (⟨S3300000x2, .f32⟩ : BufTy).Contents (Elt F)),
    nullary main_cst_19 (constant S_ .f32 0x00000000#32),
    unary main_cst_19 main_v89 (broadcastInDim S100000x2 ![] bcast_S_S100000x2 : (⟨S_, .f32⟩ : BufTy).Contents (Elt F) → (⟨S100000x2, .f32⟩ : BufTy).Contents (Elt F)),
    unary main_v55 main_v90 (broadcastInDim S3300000x1 ![0] bcast_S3300000_S3300000x1_0 : (⟨S3300000, .i32⟩ : BufTy).Contents (Elt F) → (⟨S3300000x1, .i32⟩ : BufTy).Contents (Elt F)),
    ternary main_v89 main_v90 main_v88 main_v91 ((fun x i u => Host.scatterAdd scatter_S100000x2_S3300000x1_S3300000x2_1_0_0_1 x i u) : (⟨S100000x2, .f32⟩ : BufTy).Contents (Elt F) → (⟨S3300000x1, .i32⟩ : BufTy).Contents (Elt F) → (⟨S3300000x2, .f32⟩ : BufTy).Contents (Elt F) → (⟨S100000x2, .f32⟩ : BufTy).Contents (Elt F)) ]

/-- Stretch 10 of the reference's operations (ending at `main_v95`). -/
abbrev opsS10 : List (HloOp τ sig (Elt F)) :=
  [ unary main_arg4 main_v92 (broadcastInDim S1x2 ![1] bcast_S2_S1x2_1 : (⟨S2, .f32⟩ : BufTy).Contents (Elt F) → (⟨S1x2, .f32⟩ : BufTy).Contents (Elt F)),
    unary main_v92 main_v93 (broadcastInDim S100000x2 ![0, 1] bcast_S1x2_S100000x2_0_1 : (⟨S1x2, .f32⟩ : BufTy).Contents (Elt F) → (⟨S100000x2, .f32⟩ : BufTy).Contents (Elt F)),
    binary main_v91 main_v93 main_v94 (addf : (⟨S100000x2, .f32⟩ : BufTy).Contents (Elt F) → (⟨S100000x2, .f32⟩ : BufTy).Contents (Elt F) → (⟨S100000x2, .f32⟩ : BufTy).Contents (Elt F)),
    TRef.nullary (TRef.of (T := ⟨S_, .f32⟩) main_call3_cst) (constant S_ .f32 0xFF800000#32),
    TRef.binary (TRef.of (T := ⟨S100000x2, .f32⟩) main_v94) (TRef.of (T := ⟨S_, .f32⟩) main_call3_cst) (TRef.of (T := ⟨S100000, .f32⟩) main_call3_v0) (fun x v => Host.reduce FloatOps.maximumf x v reducesTo_S100000x2_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x2, .f32⟩) main_call3_v4) (broadcastInDim S100000x2 ![0, 1] bcast_S100000x1_S100000x2_0_1),
    TRef.binary (TRef.of (T := ⟨S100000x2, .f32⟩) main_v94) (TRef.of (T := ⟨S100000x2, .f32⟩) main_call3_v4) (TRef.of (T := ⟨S100000x2, .f32⟩) main_call3_v5) subf,
    TRef.unary (TRef.of (T := ⟨S100000x2, .f32⟩) main_call3_v5) (TRef.of (T := ⟨S100000x2, .f32⟩) main_call3_v6) Host.exp,
    TRef.nullary (TRef.of (T := ⟨S_, .f32⟩) main_call3_cst_1) (constant S_ .f32 0x00000000#32),
    TRef.binary (TRef.of (T := ⟨S100000x2, .f32⟩) main_call3_v6) (TRef.of (T := ⟨S_, .f32⟩) main_call3_cst_1) (TRef.of (T := ⟨S100000, .f32⟩) main_call3_v7) (fun x v => Host.reduceAdd x v reducesTo_S100000x2_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x2, .f32⟩) main_call3_v10) (broadcastInDim S100000x2 ![0, 1] bcast_S100000x1_S100000x2_0_1),
    TRef.binary (TRef.of (T := ⟨S100000x2, .f32⟩) main_call3_v5) (TRef.of (T := ⟨S100000x2, .f32⟩) main_call3_v10) (TRef.of (T := ⟨S100000x2, .f32⟩) main_v95) subf ]

/-- The ten stretches in a row are the program's operations. -/
theorem ops_split : (Cert.ReferenceIdeal.ValueP.ops : List (HloOp τ sig (Elt F))) = opsS1 ++ (opsS2 ++ (opsS3 ++ (opsS4 ++ (opsS5 ++ (opsS6 ++ (opsS7 ++ (opsS8 ++ (opsS9 ++ (opsS10))))))))) := rfl

end Lists

variable (m : (ℓ : Loc nD τ sig) → Buf (Elt Ideal) ℓ)

/-- A buffer none of a stretch's operations writes holds after the stretch what it held before. -/
local macro "unwritten" ops:ident : tactic => `(tactic|
  (refine StableHlo.after_of_forall_not_mem _ _ (List.forall_iff_forall_mem.mp ?_)
   simp only [$ops:ident, List.flatten_cons, List.flatten_nil, List.append_nil, List.cons_append,
     List.nil_append, List.Forall, StableHlo.nullary_writes, StableHlo.unary_writes, StableHlo.binary_writes, StableHlo.ternary_writes, StableHlo.quaternary_writes, StableHlo.reshape_writes, StableHlo.binaryIndexed_writes, Finset.mem_singleton]
   repeat' apply And.intro
   all_goals exact StableHlo.devRef_ne_of_ne (by decide)))

/-- The buffer contents after each stretch (from the launch contents). -/
def V1 (c : Dev nD) : Valuation τ sig (Elt Ideal) := StableHlo.after opsS1 (launchContents m c)
def V2 (c : Dev nD) : Valuation τ sig (Elt Ideal) := StableHlo.after opsS2 (V1 m c)
def V3 (c : Dev nD) : Valuation τ sig (Elt Ideal) := StableHlo.after opsS3 (V2 m c)
def V4 (c : Dev nD) : Valuation τ sig (Elt Ideal) := StableHlo.after opsS4 (V3 m c)
def V5 (c : Dev nD) : Valuation τ sig (Elt Ideal) := StableHlo.after opsS5 (V4 m c)
def V6 (c : Dev nD) : Valuation τ sig (Elt Ideal) := StableHlo.after opsS6 (V5 m c)
def V7 (c : Dev nD) : Valuation τ sig (Elt Ideal) := StableHlo.after opsS7 (V6 m c)
def V8 (c : Dev nD) : Valuation τ sig (Elt Ideal) := StableHlo.after opsS8 (V7 m c)
def V9 (c : Dev nD) : Valuation τ sig (Elt Ideal) := StableHlo.after opsS9 (V8 m c)
def V10 (c : Dev nD) : Valuation τ sig (Elt Ideal) := StableHlo.after opsS10 (V9 m c)

theorem V0_arg0 (c : Dev nD) : launchContents m c (Proc.devRef .tc main_arg0) = m ((c : Thread nD τ).loc main_arg0) := rfl
theorem V0_arg1 (c : Dev nD) : launchContents m c (Proc.devRef .tc main_arg1) = m ((c : Thread nD τ).loc main_arg1) := rfl
theorem V0_arg2 (c : Dev nD) : launchContents m c (Proc.devRef .tc main_arg2) = m ((c : Thread nD τ).loc main_arg2) := rfl
theorem V0_arg3 (c : Dev nD) : launchContents m c (Proc.devRef .tc main_arg3) = m ((c : Thread nD τ).loc main_arg3) := rfl
theorem V0_arg4 (c : Dev nD) : launchContents m c (Proc.devRef .tc main_arg4) = m ((c : Thread nD τ).loc main_arg4) := rfl
theorem V0_arg5 (c : Dev nD) : launchContents m c (Proc.devRef .tc main_arg5) = m ((c : Thread nD τ).loc main_arg5) := rfl

theorem V1_arg0 (c : Dev nD) : V1 m c (Proc.devRef .tc main_arg0) = m ((c : Thread nD τ).loc main_arg0) :=
  (by unwritten opsS1 : V1 m c (Proc.devRef .tc main_arg0) = launchContents m c (Proc.devRef .tc main_arg0)).trans (V0_arg0 m c)
theorem V1_arg1 (c : Dev nD) : V1 m c (Proc.devRef .tc main_arg1) = m ((c : Thread nD τ).loc main_arg1) :=
  (by unwritten opsS1 : V1 m c (Proc.devRef .tc main_arg1) = launchContents m c (Proc.devRef .tc main_arg1)).trans (V0_arg1 m c)
theorem V1_arg2 (c : Dev nD) : V1 m c (Proc.devRef .tc main_arg2) = m ((c : Thread nD τ).loc main_arg2) :=
  (by unwritten opsS1 : V1 m c (Proc.devRef .tc main_arg2) = launchContents m c (Proc.devRef .tc main_arg2)).trans (V0_arg2 m c)
theorem V1_arg3 (c : Dev nD) : V1 m c (Proc.devRef .tc main_arg3) = m ((c : Thread nD τ).loc main_arg3) :=
  (by unwritten opsS1 : V1 m c (Proc.devRef .tc main_arg3) = launchContents m c (Proc.devRef .tc main_arg3)).trans (V0_arg3 m c)
theorem V1_arg4 (c : Dev nD) : V1 m c (Proc.devRef .tc main_arg4) = m ((c : Thread nD τ).loc main_arg4) :=
  (by unwritten opsS1 : V1 m c (Proc.devRef .tc main_arg4) = launchContents m c (Proc.devRef .tc main_arg4)).trans (V0_arg4 m c)
theorem V1_arg5 (c : Dev nD) : V1 m c (Proc.devRef .tc main_arg5) = m ((c : Thread nD τ).loc main_arg5) :=
  (by unwritten opsS1 : V1 m c (Proc.devRef .tc main_arg5) = launchContents m c (Proc.devRef .tc main_arg5)).trans (V0_arg5 m c)
set_option maxHeartbeats 4000000 in
theorem V1_v0 (c : Dev nD) : V1 m c (Proc.devRef .tc main_v0) = Cert.ReferenceIdeal.ReadP.val_main_v0 (F := Ideal) (m ((c : Thread nD τ).loc main_arg0)) (m ((c : Thread nD τ).loc main_arg1)) := by
  show StableHlo.after opsS1 (launchContents m c) (Proc.devRef .tc main_v0) = _
  after_results_simp
  try rw [V0_arg0 m c]
  try rw [V0_arg1 m c]
  try rw [V0_arg5 m c]
  simp only [Cert.ReferenceIdeal.ReadP.val_main_v0, Cert.ReferenceIdeal.ReadP.val_main_v1, Cert.ReferenceIdeal.ReadP.val_main_v2, Cert.ReferenceIdeal.ReadP.val_main_v3, Cert.ReferenceIdeal.ReadP.val_main_v4, Cert.ReferenceIdeal.ReadP.val_main_v5, Cert.ReferenceIdeal.ReadP.val_main_v6, Cert.ReferenceIdeal.ReadP.val_main_v7]
  all_goals rfl
set_option maxHeartbeats 4000000 in
theorem V1_v6 (c : Dev nD) : V1 m c (Proc.devRef .tc main_v6) = Cert.ReferenceIdeal.ReadP.val_main_v6 (F := Ideal) (m ((c : Thread nD τ).loc main_arg5)) := by
  show StableHlo.after opsS1 (launchContents m c) (Proc.devRef .tc main_v6) = _
  after_results_simp
  try rw [V0_arg0 m c]
  try rw [V0_arg1 m c]
  try rw [V0_arg5 m c]
  simp only [Cert.ReferenceIdeal.ReadP.val_main_v0, Cert.ReferenceIdeal.ReadP.val_main_v1, Cert.ReferenceIdeal.ReadP.val_main_v2, Cert.ReferenceIdeal.ReadP.val_main_v3, Cert.ReferenceIdeal.ReadP.val_main_v4, Cert.ReferenceIdeal.ReadP.val_main_v5, Cert.ReferenceIdeal.ReadP.val_main_v6, Cert.ReferenceIdeal.ReadP.val_main_v7]
  all_goals rfl
set_option maxHeartbeats 4000000 in
theorem V1_v7 (c : Dev nD) : V1 m c (Proc.devRef .tc main_v7) = Cert.ReferenceIdeal.ReadP.val_main_v7 (F := Ideal) (m ((c : Thread nD τ).loc main_arg5)) := by
  show StableHlo.after opsS1 (launchContents m c) (Proc.devRef .tc main_v7) = _
  after_results_simp
  try rw [V0_arg0 m c]
  try rw [V0_arg1 m c]
  try rw [V0_arg5 m c]
  simp only [Cert.ReferenceIdeal.ReadP.val_main_v0, Cert.ReferenceIdeal.ReadP.val_main_v1, Cert.ReferenceIdeal.ReadP.val_main_v2, Cert.ReferenceIdeal.ReadP.val_main_v3, Cert.ReferenceIdeal.ReadP.val_main_v4, Cert.ReferenceIdeal.ReadP.val_main_v5, Cert.ReferenceIdeal.ReadP.val_main_v6, Cert.ReferenceIdeal.ReadP.val_main_v7]
  all_goals rfl

theorem V2_arg0 (c : Dev nD) : V2 m c (Proc.devRef .tc main_arg0) = m ((c : Thread nD τ).loc main_arg0) :=
  (by unwritten opsS2 : V2 m c (Proc.devRef .tc main_arg0) = V1 m c (Proc.devRef .tc main_arg0)).trans (V1_arg0 m c)
theorem V2_arg1 (c : Dev nD) : V2 m c (Proc.devRef .tc main_arg1) = m ((c : Thread nD τ).loc main_arg1) :=
  (by unwritten opsS2 : V2 m c (Proc.devRef .tc main_arg1) = V1 m c (Proc.devRef .tc main_arg1)).trans (V1_arg1 m c)
theorem V2_arg2 (c : Dev nD) : V2 m c (Proc.devRef .tc main_arg2) = m ((c : Thread nD τ).loc main_arg2) :=
  (by unwritten opsS2 : V2 m c (Proc.devRef .tc main_arg2) = V1 m c (Proc.devRef .tc main_arg2)).trans (V1_arg2 m c)
theorem V2_arg3 (c : Dev nD) : V2 m c (Proc.devRef .tc main_arg3) = m ((c : Thread nD τ).loc main_arg3) :=
  (by unwritten opsS2 : V2 m c (Proc.devRef .tc main_arg3) = V1 m c (Proc.devRef .tc main_arg3)).trans (V1_arg3 m c)
theorem V2_arg4 (c : Dev nD) : V2 m c (Proc.devRef .tc main_arg4) = m ((c : Thread nD τ).loc main_arg4) :=
  (by unwritten opsS2 : V2 m c (Proc.devRef .tc main_arg4) = V1 m c (Proc.devRef .tc main_arg4)).trans (V1_arg4 m c)
theorem V2_arg5 (c : Dev nD) : V2 m c (Proc.devRef .tc main_arg5) = m ((c : Thread nD τ).loc main_arg5) :=
  (by unwritten opsS2 : V2 m c (Proc.devRef .tc main_arg5) = V1 m c (Proc.devRef .tc main_arg5)).trans (V1_arg5 m c)
theorem V2_v0 (c : Dev nD) : V2 m c (Proc.devRef .tc main_v0) = Cert.ReferenceIdeal.ReadP.val_main_v0 (F := Ideal) (m ((c : Thread nD τ).loc main_arg0)) (m ((c : Thread nD τ).loc main_arg1)) :=
  (by unwritten opsS2 : V2 m c (Proc.devRef .tc main_v0) = V1 m c (Proc.devRef .tc main_v0)).trans (V1_v0 m c)
theorem V2_v6 (c : Dev nD) : V2 m c (Proc.devRef .tc main_v6) = Cert.ReferenceIdeal.ReadP.val_main_v6 (F := Ideal) (m ((c : Thread nD τ).loc main_arg5)) :=
  (by unwritten opsS2 : V2 m c (Proc.devRef .tc main_v6) = V1 m c (Proc.devRef .tc main_v6)).trans (V1_v6 m c)
theorem V2_v7 (c : Dev nD) : V2 m c (Proc.devRef .tc main_v7) = Cert.ReferenceIdeal.ReadP.val_main_v7 (F := Ideal) (m ((c : Thread nD τ).loc main_arg5)) :=
  (by unwritten opsS2 : V2 m c (Proc.devRef .tc main_v7) = V1 m c (Proc.devRef .tc main_v7)).trans (V1_v7 m c)
set_option maxHeartbeats 4000000 in
theorem V2_v15 (c : Dev nD) : V2 m c (Proc.devRef .tc main_v15) = Cert.ReferenceIdeal.ReadP.val_main_v15 (F := Ideal) (m ((c : Thread nD τ).loc main_arg5)) := by
  show StableHlo.after opsS2 (V1 m c) (Proc.devRef .tc main_v15) = _
  after_results_simp
  try rw [V1_v7 m c]
  simp only [Cert.ReferenceIdeal.ReadP.val_main_cst, Cert.ReferenceIdeal.ReadP.val_main_v8, Cert.ReferenceIdeal.ReadP.val_main_cst_0, Cert.ReferenceIdeal.ReadP.val_main_v9, Cert.ReferenceIdeal.ReadP.val_main_v10, Cert.ReferenceIdeal.ReadP.val_main_v11, Cert.ReferenceIdeal.ReadP.val_main_cst_1, Cert.ReferenceIdeal.ReadP.val_main_v12, Cert.ReferenceIdeal.ReadP.val_main_v13, Cert.ReferenceIdeal.ReadP.val_main_v14, Cert.ReferenceIdeal.ReadP.val_main_cst_2, Cert.ReferenceIdeal.ReadP.val_main_call0_v0, Cert.ReferenceIdeal.ReadP.val_main_call0_v1, Cert.ReferenceIdeal.ReadP.val_main_v15]
  try generalize Cert.ReferenceIdeal.ReadP.val_main_v7 (F := Ideal) (m ((c : Thread nD τ).loc main_arg5)) = A0
  have eo0 : ∀ v, (TRef.of (sig := sig) (T := ⟨S_, .f32⟩) main_cst_2).ofBuf (Val := Elt Ideal) v = v := fun _ => rfl
  have et0 : ∀ v, (TRef.of (sig := sig) (T := ⟨S_, .f32⟩) main_cst_2).toBuf (Val := Elt Ideal) v = v := fun _ => rfl
  have eo1 : ∀ v, (TRef.of (sig := sig) (T := ⟨S_, .f32⟩) main_call0_v0).ofBuf (Val := Elt Ideal) v = v := fun _ => rfl
  have et1 : ∀ v, (TRef.of (sig := sig) (T := ⟨S_, .f32⟩) main_call0_v0).toBuf (Val := Elt Ideal) v = v := fun _ => rfl
  have eo2 : ∀ v, (TRef.of (sig := sig) (T := ⟨S100000, .f32⟩) main_call0_v1).ofBuf (Val := Elt Ideal) v = v := fun _ => rfl
  have et2 : ∀ v, (TRef.of (sig := sig) (T := ⟨S100000, .f32⟩) main_call0_v1).toBuf (Val := Elt Ideal) v = v := fun _ => rfl
  have eo3 : ∀ v, (TRef.of (sig := sig) (T := ⟨S100000, .i1⟩) main_v13).ofBuf (Val := Elt Ideal) v = v := fun _ => rfl
  have et3 : ∀ v, (TRef.of (sig := sig) (T := ⟨S100000, .i1⟩) main_v13).toBuf (Val := Elt Ideal) v = v := fun _ => rfl
  have eo4 : ∀ v, (TRef.of (sig := sig) (T := ⟨S100000, .f32⟩) main_v14).ofBuf (Val := Elt Ideal) v = v := fun _ => rfl
  have et4 : ∀ v, (TRef.of (sig := sig) (T := ⟨S100000, .f32⟩) main_v14).toBuf (Val := Elt Ideal) v = v := fun _ => rfl
  have eo5 : ∀ v, (TRef.of (sig := sig) (T := ⟨S100000, .f32⟩) main_v15).ofBuf (Val := Elt Ideal) v = v := fun _ => rfl
  have et5 : ∀ v, (TRef.of (sig := sig) (T := ⟨S100000, .f32⟩) main_v15).toBuf (Val := Elt Ideal) v = v := fun _ => rfl
  try simp only [eo0, et0, eo1, et1, eo2, et2, eo3, et3, eo4, et4, eo5, et5]
  all_goals rfl

theorem V3_arg0 (c : Dev nD) : V3 m c (Proc.devRef .tc main_arg0) = m ((c : Thread nD τ).loc main_arg0) :=
  (by unwritten opsS3 : V3 m c (Proc.devRef .tc main_arg0) = V2 m c (Proc.devRef .tc main_arg0)).trans (V2_arg0 m c)
theorem V3_arg1 (c : Dev nD) : V3 m c (Proc.devRef .tc main_arg1) = m ((c : Thread nD τ).loc main_arg1) :=
  (by unwritten opsS3 : V3 m c (Proc.devRef .tc main_arg1) = V2 m c (Proc.devRef .tc main_arg1)).trans (V2_arg1 m c)
theorem V3_arg2 (c : Dev nD) : V3 m c (Proc.devRef .tc main_arg2) = m ((c : Thread nD τ).loc main_arg2) :=
  (by unwritten opsS3 : V3 m c (Proc.devRef .tc main_arg2) = V2 m c (Proc.devRef .tc main_arg2)).trans (V2_arg2 m c)
theorem V3_arg3 (c : Dev nD) : V3 m c (Proc.devRef .tc main_arg3) = m ((c : Thread nD τ).loc main_arg3) :=
  (by unwritten opsS3 : V3 m c (Proc.devRef .tc main_arg3) = V2 m c (Proc.devRef .tc main_arg3)).trans (V2_arg3 m c)
theorem V3_arg4 (c : Dev nD) : V3 m c (Proc.devRef .tc main_arg4) = m ((c : Thread nD τ).loc main_arg4) :=
  (by unwritten opsS3 : V3 m c (Proc.devRef .tc main_arg4) = V2 m c (Proc.devRef .tc main_arg4)).trans (V2_arg4 m c)
theorem V3_arg5 (c : Dev nD) : V3 m c (Proc.devRef .tc main_arg5) = m ((c : Thread nD τ).loc main_arg5) :=
  (by unwritten opsS3 : V3 m c (Proc.devRef .tc main_arg5) = V2 m c (Proc.devRef .tc main_arg5)).trans (V2_arg5 m c)
theorem V3_v0 (c : Dev nD) : V3 m c (Proc.devRef .tc main_v0) = Cert.ReferenceIdeal.ReadP.val_main_v0 (F := Ideal) (m ((c : Thread nD τ).loc main_arg0)) (m ((c : Thread nD τ).loc main_arg1)) :=
  (by unwritten opsS3 : V3 m c (Proc.devRef .tc main_v0) = V2 m c (Proc.devRef .tc main_v0)).trans (V2_v0 m c)
theorem V3_v6 (c : Dev nD) : V3 m c (Proc.devRef .tc main_v6) = Cert.ReferenceIdeal.ReadP.val_main_v6 (F := Ideal) (m ((c : Thread nD τ).loc main_arg5)) :=
  (by unwritten opsS3 : V3 m c (Proc.devRef .tc main_v6) = V2 m c (Proc.devRef .tc main_v6)).trans (V2_v6 m c)
theorem V3_v7 (c : Dev nD) : V3 m c (Proc.devRef .tc main_v7) = Cert.ReferenceIdeal.ReadP.val_main_v7 (F := Ideal) (m ((c : Thread nD τ).loc main_arg5)) :=
  (by unwritten opsS3 : V3 m c (Proc.devRef .tc main_v7) = V2 m c (Proc.devRef .tc main_v7)).trans (V2_v7 m c)
set_option maxHeartbeats 4000000 in
theorem V3_v30 (c : Dev nD) : V3 m c (Proc.devRef .tc main_v30) = Cert.ReferenceIdeal.ReadP.val_main_v30 (F := Ideal) (m ((c : Thread nD τ).loc main_arg5)) := by
  show StableHlo.after opsS3 (V2 m c) (Proc.devRef .tc main_v30) = _
  after_results_simp
  try rw [V2_v6 m c]
  try rw [V2_v7 m c]
  try rw [V2_v15 m c]
  simp only [Cert.ReferenceIdeal.ReadP.val_main_c, Cert.ReferenceIdeal.ReadP.val_main_v16, Cert.ReferenceIdeal.ReadP.val_main_v17, Cert.ReferenceIdeal.ReadP.val_main_c_3, Cert.ReferenceIdeal.ReadP.val_main_v18, Cert.ReferenceIdeal.ReadP.val_main_v19, Cert.ReferenceIdeal.ReadP.val_main_v20, Cert.ReferenceIdeal.ReadP.val_main_v21, Cert.ReferenceIdeal.ReadP.val_main_v22, Cert.ReferenceIdeal.ReadP.val_main_c_4, Cert.ReferenceIdeal.ReadP.val_main_v23, Cert.ReferenceIdeal.ReadP.val_main_v24, Cert.ReferenceIdeal.ReadP.val_main_c_5, Cert.ReferenceIdeal.ReadP.val_main_v25, Cert.ReferenceIdeal.ReadP.val_main_v26, Cert.ReferenceIdeal.ReadP.val_main_v27, Cert.ReferenceIdeal.ReadP.val_main_v28, Cert.ReferenceIdeal.ReadP.val_main_v29, Cert.ReferenceIdeal.ReadP.val_main_v30]
  try generalize Cert.ReferenceIdeal.ReadP.val_main_v6 (F := Ideal) (m ((c : Thread nD τ).loc main_arg5)) = A0
  try generalize Cert.ReferenceIdeal.ReadP.val_main_v7 (F := Ideal) (m ((c : Thread nD τ).loc main_arg5)) = A1
  try generalize Cert.ReferenceIdeal.ReadP.val_main_v15 (F := Ideal) (m ((c : Thread nD τ).loc main_arg5)) = A2
  all_goals rfl

theorem V4_arg0 (c : Dev nD) : V4 m c (Proc.devRef .tc main_arg0) = m ((c : Thread nD τ).loc main_arg0) :=
  (by unwritten opsS4 : V4 m c (Proc.devRef .tc main_arg0) = V3 m c (Proc.devRef .tc main_arg0)).trans (V3_arg0 m c)
theorem V4_arg1 (c : Dev nD) : V4 m c (Proc.devRef .tc main_arg1) = m ((c : Thread nD τ).loc main_arg1) :=
  (by unwritten opsS4 : V4 m c (Proc.devRef .tc main_arg1) = V3 m c (Proc.devRef .tc main_arg1)).trans (V3_arg1 m c)
theorem V4_arg2 (c : Dev nD) : V4 m c (Proc.devRef .tc main_arg2) = m ((c : Thread nD τ).loc main_arg2) :=
  (by unwritten opsS4 : V4 m c (Proc.devRef .tc main_arg2) = V3 m c (Proc.devRef .tc main_arg2)).trans (V3_arg2 m c)
theorem V4_arg3 (c : Dev nD) : V4 m c (Proc.devRef .tc main_arg3) = m ((c : Thread nD τ).loc main_arg3) :=
  (by unwritten opsS4 : V4 m c (Proc.devRef .tc main_arg3) = V3 m c (Proc.devRef .tc main_arg3)).trans (V3_arg3 m c)
theorem V4_arg4 (c : Dev nD) : V4 m c (Proc.devRef .tc main_arg4) = m ((c : Thread nD τ).loc main_arg4) :=
  (by unwritten opsS4 : V4 m c (Proc.devRef .tc main_arg4) = V3 m c (Proc.devRef .tc main_arg4)).trans (V3_arg4 m c)
theorem V4_arg5 (c : Dev nD) : V4 m c (Proc.devRef .tc main_arg5) = m ((c : Thread nD τ).loc main_arg5) :=
  (by unwritten opsS4 : V4 m c (Proc.devRef .tc main_arg5) = V3 m c (Proc.devRef .tc main_arg5)).trans (V3_arg5 m c)
set_option maxHeartbeats 4000000 in
theorem V4_v43 (c : Dev nD) : V4 m c (Proc.devRef .tc main_v43) = Cert.ReferenceIdeal.ReadP.val_main_v43 (F := Ideal) (m ((c : Thread nD τ).loc main_arg0)) (m ((c : Thread nD τ).loc main_arg1)) (m ((c : Thread nD τ).loc main_arg5)) := by
  show StableHlo.after opsS4 (V3 m c) (Proc.devRef .tc main_v43) = _
  after_results_simp
  try rw [V3_v0 m c]
  try rw [V3_v6 m c]
  try rw [V3_v7 m c]
  try rw [V3_v30 m c]
  simp only [Cert.ReferenceIdeal.ReadP.val_main_c_6, Cert.ReferenceIdeal.ReadP.val_main_v31, Cert.ReferenceIdeal.ReadP.val_main_v32, Cert.ReferenceIdeal.ReadP.val_main_c_7, Cert.ReferenceIdeal.ReadP.val_main_v33, Cert.ReferenceIdeal.ReadP.val_main_v34, Cert.ReferenceIdeal.ReadP.val_main_v35, Cert.ReferenceIdeal.ReadP.val_main_v36, Cert.ReferenceIdeal.ReadP.val_main_v37, Cert.ReferenceIdeal.ReadP.val_main_v38, Cert.ReferenceIdeal.ReadP.val_main_v39, Cert.ReferenceIdeal.ReadP.val_main_v40, Cert.ReferenceIdeal.ReadP.val_main_cst_8, Cert.ReferenceIdeal.ReadP.val_main_v41, Cert.ReferenceIdeal.ReadP.val_main_v42, Cert.ReferenceIdeal.ReadP.val_main_v43]
  try generalize Cert.ReferenceIdeal.ReadP.val_main_v0 (F := Ideal) (m ((c : Thread nD τ).loc main_arg0)) (m ((c : Thread nD τ).loc main_arg1)) = A0
  try generalize Cert.ReferenceIdeal.ReadP.val_main_v6 (F := Ideal) (m ((c : Thread nD τ).loc main_arg5)) = A1
  try generalize Cert.ReferenceIdeal.ReadP.val_main_v7 (F := Ideal) (m ((c : Thread nD τ).loc main_arg5)) = A2
  try generalize Cert.ReferenceIdeal.ReadP.val_main_v30 (F := Ideal) (m ((c : Thread nD τ).loc main_arg5)) = A3
  all_goals rfl

theorem V5_arg0 (c : Dev nD) : V5 m c (Proc.devRef .tc main_arg0) = m ((c : Thread nD τ).loc main_arg0) :=
  (by unwritten opsS5 : V5 m c (Proc.devRef .tc main_arg0) = V4 m c (Proc.devRef .tc main_arg0)).trans (V4_arg0 m c)
theorem V5_arg1 (c : Dev nD) : V5 m c (Proc.devRef .tc main_arg1) = m ((c : Thread nD τ).loc main_arg1) :=
  (by unwritten opsS5 : V5 m c (Proc.devRef .tc main_arg1) = V4 m c (Proc.devRef .tc main_arg1)).trans (V4_arg1 m c)
theorem V5_arg2 (c : Dev nD) : V5 m c (Proc.devRef .tc main_arg2) = m ((c : Thread nD τ).loc main_arg2) :=
  (by unwritten opsS5 : V5 m c (Proc.devRef .tc main_arg2) = V4 m c (Proc.devRef .tc main_arg2)).trans (V4_arg2 m c)
theorem V5_arg3 (c : Dev nD) : V5 m c (Proc.devRef .tc main_arg3) = m ((c : Thread nD τ).loc main_arg3) :=
  (by unwritten opsS5 : V5 m c (Proc.devRef .tc main_arg3) = V4 m c (Proc.devRef .tc main_arg3)).trans (V4_arg3 m c)
theorem V5_arg4 (c : Dev nD) : V5 m c (Proc.devRef .tc main_arg4) = m ((c : Thread nD τ).loc main_arg4) :=
  (by unwritten opsS5 : V5 m c (Proc.devRef .tc main_arg4) = V4 m c (Proc.devRef .tc main_arg4)).trans (V4_arg4 m c)
theorem V5_arg5 (c : Dev nD) : V5 m c (Proc.devRef .tc main_arg5) = m ((c : Thread nD τ).loc main_arg5) :=
  (by unwritten opsS5 : V5 m c (Proc.devRef .tc main_arg5) = V4 m c (Proc.devRef .tc main_arg5)).trans (V4_arg5 m c)
set_option maxHeartbeats 4000000 in
theorem V5_v48 (c : Dev nD) : V5 m c (Proc.devRef .tc main_v48) = Cert.ReferenceIdeal.ReadP.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg5)) := by
  show StableHlo.after opsS5 (V4 m c) (Proc.devRef .tc main_v48) = _
  after_results_simp
  try rw [V4_arg2 m c]
  try rw [V4_arg3 m c]
  try rw [V4_v43 m c]
  simp only [Cert.ReferenceIdeal.ReadP.val_main_v44, Cert.ReferenceIdeal.ReadP.val_main_v45, Cert.ReferenceIdeal.ReadP.val_main_v46, Cert.ReferenceIdeal.ReadP.val_main_call1_cst, Cert.ReferenceIdeal.ReadP.val_main_call1_v0, Cert.ReferenceIdeal.ReadP.val_main_v47, Cert.ReferenceIdeal.ReadP.val_main_v48]
  try generalize Cert.ReferenceIdeal.ReadP.val_main_v43 (F := Ideal) (m ((c : Thread nD τ).loc main_arg0)) (m ((c : Thread nD τ).loc main_arg1)) (m ((c : Thread nD τ).loc main_arg5)) = A0
  have eo0 : ∀ v, (TRef.of (sig := sig) (T := ⟨S_, .f32⟩) main_call1_cst).ofBuf (Val := Elt Ideal) v = v := fun _ => rfl
  have et0 : ∀ v, (TRef.of (sig := sig) (T := ⟨S_, .f32⟩) main_call1_cst).toBuf (Val := Elt Ideal) v = v := fun _ => rfl
  have eo1 : ∀ v, (TRef.of (sig := sig) (T := ⟨S100000x16, .f32⟩) main_call1_v0).ofBuf (Val := Elt Ideal) v = v := fun _ => rfl
  have et1 : ∀ v, (TRef.of (sig := sig) (T := ⟨S100000x16, .f32⟩) main_call1_v0).toBuf (Val := Elt Ideal) v = v := fun _ => rfl
  have eo2 : ∀ v, (TRef.of (sig := sig) (T := ⟨S100000x16, .f32⟩) main_v46).ofBuf (Val := Elt Ideal) v = v := fun _ => rfl
  have et2 : ∀ v, (TRef.of (sig := sig) (T := ⟨S100000x16, .f32⟩) main_v46).toBuf (Val := Elt Ideal) v = v := fun _ => rfl
  have eo3 : ∀ v, (TRef.of (sig := sig) (T := ⟨S100000x16, .f32⟩) main_v47).ofBuf (Val := Elt Ideal) v = v := fun _ => rfl
  have et3 : ∀ v, (TRef.of (sig := sig) (T := ⟨S100000x16, .f32⟩) main_v47).toBuf (Val := Elt Ideal) v = v := fun _ => rfl
  try simp only [eo0, et0, eo1, et1, eo2, et2, eo3, et3]
  all_goals rfl

theorem V6_arg0 (c : Dev nD) : V6 m c (Proc.devRef .tc main_arg0) = m ((c : Thread nD τ).loc main_arg0) :=
  (by unwritten opsS6 : V6 m c (Proc.devRef .tc main_arg0) = V5 m c (Proc.devRef .tc main_arg0)).trans (V5_arg0 m c)
theorem V6_arg1 (c : Dev nD) : V6 m c (Proc.devRef .tc main_arg1) = m ((c : Thread nD τ).loc main_arg1) :=
  (by unwritten opsS6 : V6 m c (Proc.devRef .tc main_arg1) = V5 m c (Proc.devRef .tc main_arg1)).trans (V5_arg1 m c)
theorem V6_arg2 (c : Dev nD) : V6 m c (Proc.devRef .tc main_arg2) = m ((c : Thread nD τ).loc main_arg2) :=
  (by unwritten opsS6 : V6 m c (Proc.devRef .tc main_arg2) = V5 m c (Proc.devRef .tc main_arg2)).trans (V5_arg2 m c)
theorem V6_arg3 (c : Dev nD) : V6 m c (Proc.devRef .tc main_arg3) = m ((c : Thread nD τ).loc main_arg3) :=
  (by unwritten opsS6 : V6 m c (Proc.devRef .tc main_arg3) = V5 m c (Proc.devRef .tc main_arg3)).trans (V5_arg3 m c)
theorem V6_arg4 (c : Dev nD) : V6 m c (Proc.devRef .tc main_arg4) = m ((c : Thread nD τ).loc main_arg4) :=
  (by unwritten opsS6 : V6 m c (Proc.devRef .tc main_arg4) = V5 m c (Proc.devRef .tc main_arg4)).trans (V5_arg4 m c)
theorem V6_arg5 (c : Dev nD) : V6 m c (Proc.devRef .tc main_arg5) = m ((c : Thread nD τ).loc main_arg5) :=
  (by unwritten opsS6 : V6 m c (Proc.devRef .tc main_arg5) = V5 m c (Proc.devRef .tc main_arg5)).trans (V5_arg5 m c)
theorem V6_v48 (c : Dev nD) : V6 m c (Proc.devRef .tc main_v48) = Cert.ReferenceIdeal.ReadP.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg5)) :=
  (by unwritten opsS6 : V6 m c (Proc.devRef .tc main_v48) = V5 m c (Proc.devRef .tc main_v48)).trans (V5_v48 m c)
set_option maxHeartbeats 4000000 in
theorem V6_v54 (c : Dev nD) : V6 m c (Proc.devRef .tc main_v54) = Cert.ReferenceIdeal.ReadP.val_main_v54 (F := Ideal) (m ((c : Thread nD τ).loc main_arg5)) := by
  show StableHlo.after opsS6 (V5 m c) (Proc.devRef .tc main_v54) = _
  after_results_simp
  try rw [V5_arg5 m c]
  simp only [Cert.ReferenceIdeal.ReadP.val_main_v49, Cert.ReferenceIdeal.ReadP.val_main_v50, Cert.ReferenceIdeal.ReadP.val_main_v51, Cert.ReferenceIdeal.ReadP.val_main_v52, Cert.ReferenceIdeal.ReadP.val_main_v53, Cert.ReferenceIdeal.ReadP.val_main_v54, Cert.ReferenceIdeal.ReadP.val_main_v55]
  all_goals rfl
set_option maxHeartbeats 4000000 in
theorem V6_v55 (c : Dev nD) : V6 m c (Proc.devRef .tc main_v55) = Cert.ReferenceIdeal.ReadP.val_main_v55 (F := Ideal) (m ((c : Thread nD τ).loc main_arg5)) := by
  show StableHlo.after opsS6 (V5 m c) (Proc.devRef .tc main_v55) = _
  after_results_simp
  try rw [V5_arg5 m c]
  simp only [Cert.ReferenceIdeal.ReadP.val_main_v49, Cert.ReferenceIdeal.ReadP.val_main_v50, Cert.ReferenceIdeal.ReadP.val_main_v51, Cert.ReferenceIdeal.ReadP.val_main_v52, Cert.ReferenceIdeal.ReadP.val_main_v53, Cert.ReferenceIdeal.ReadP.val_main_v54, Cert.ReferenceIdeal.ReadP.val_main_v55]
  all_goals rfl

theorem V7_arg0 (c : Dev nD) : V7 m c (Proc.devRef .tc main_arg0) = m ((c : Thread nD τ).loc main_arg0) :=
  (by unwritten opsS7 : V7 m c (Proc.devRef .tc main_arg0) = V6 m c (Proc.devRef .tc main_arg0)).trans (V6_arg0 m c)
theorem V7_arg1 (c : Dev nD) : V7 m c (Proc.devRef .tc main_arg1) = m ((c : Thread nD τ).loc main_arg1) :=
  (by unwritten opsS7 : V7 m c (Proc.devRef .tc main_arg1) = V6 m c (Proc.devRef .tc main_arg1)).trans (V6_arg1 m c)
theorem V7_arg2 (c : Dev nD) : V7 m c (Proc.devRef .tc main_arg2) = m ((c : Thread nD τ).loc main_arg2) :=
  (by unwritten opsS7 : V7 m c (Proc.devRef .tc main_arg2) = V6 m c (Proc.devRef .tc main_arg2)).trans (V6_arg2 m c)
theorem V7_arg3 (c : Dev nD) : V7 m c (Proc.devRef .tc main_arg3) = m ((c : Thread nD τ).loc main_arg3) :=
  (by unwritten opsS7 : V7 m c (Proc.devRef .tc main_arg3) = V6 m c (Proc.devRef .tc main_arg3)).trans (V6_arg3 m c)
theorem V7_arg4 (c : Dev nD) : V7 m c (Proc.devRef .tc main_arg4) = m ((c : Thread nD τ).loc main_arg4) :=
  (by unwritten opsS7 : V7 m c (Proc.devRef .tc main_arg4) = V6 m c (Proc.devRef .tc main_arg4)).trans (V6_arg4 m c)
theorem V7_arg5 (c : Dev nD) : V7 m c (Proc.devRef .tc main_arg5) = m ((c : Thread nD τ).loc main_arg5) :=
  (by unwritten opsS7 : V7 m c (Proc.devRef .tc main_arg5) = V6 m c (Proc.devRef .tc main_arg5)).trans (V6_arg5 m c)
theorem V7_v48 (c : Dev nD) : V7 m c (Proc.devRef .tc main_v48) = Cert.ReferenceIdeal.ReadP.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg5)) :=
  (by unwritten opsS7 : V7 m c (Proc.devRef .tc main_v48) = V6 m c (Proc.devRef .tc main_v48)).trans (V6_v48 m c)
theorem V7_v54 (c : Dev nD) : V7 m c (Proc.devRef .tc main_v54) = Cert.ReferenceIdeal.ReadP.val_main_v54 (F := Ideal) (m ((c : Thread nD τ).loc main_arg5)) :=
  (by unwritten opsS7 : V7 m c (Proc.devRef .tc main_v54) = V6 m c (Proc.devRef .tc main_v54)).trans (V6_v54 m c)
theorem V7_v55 (c : Dev nD) : V7 m c (Proc.devRef .tc main_v55) = Cert.ReferenceIdeal.ReadP.val_main_v55 (F := Ideal) (m ((c : Thread nD τ).loc main_arg5)) :=
  (by unwritten opsS7 : V7 m c (Proc.devRef .tc main_v55) = V6 m c (Proc.devRef .tc main_v55)).trans (V6_v55 m c)
set_option maxHeartbeats 4000000 in
theorem V7_v63 (c : Dev nD) : V7 m c (Proc.devRef .tc main_v63) = Cert.ReferenceIdeal.ReadP.val_main_v63 (F := Ideal) (m ((c : Thread nD τ).loc main_arg5)) := by
  show StableHlo.after opsS7 (V6 m c) (Proc.devRef .tc main_v63) = _
  after_results_simp
  try rw [V6_v55 m c]
  simp only [Cert.ReferenceIdeal.ReadP.val_main_cst_9, Cert.ReferenceIdeal.ReadP.val_main_v56, Cert.ReferenceIdeal.ReadP.val_main_cst_10, Cert.ReferenceIdeal.ReadP.val_main_v57, Cert.ReferenceIdeal.ReadP.val_main_v58, Cert.ReferenceIdeal.ReadP.val_main_v59, Cert.ReferenceIdeal.ReadP.val_main_cst_11, Cert.ReferenceIdeal.ReadP.val_main_v60, Cert.ReferenceIdeal.ReadP.val_main_v61, Cert.ReferenceIdeal.ReadP.val_main_v62, Cert.ReferenceIdeal.ReadP.val_main_cst_12, Cert.ReferenceIdeal.ReadP.val_main_call2_v0, Cert.ReferenceIdeal.ReadP.val_main_call2_v1, Cert.ReferenceIdeal.ReadP.val_main_v63]
  try generalize Cert.ReferenceIdeal.ReadP.val_main_v55 (F := Ideal) (m ((c : Thread nD τ).loc main_arg5)) = A0
  have eo0 : ∀ v, (TRef.of (sig := sig) (T := ⟨S_, .f32⟩) main_cst_12).ofBuf (Val := Elt Ideal) v = v := fun _ => rfl
  have et0 : ∀ v, (TRef.of (sig := sig) (T := ⟨S_, .f32⟩) main_cst_12).toBuf (Val := Elt Ideal) v = v := fun _ => rfl
  have eo1 : ∀ v, (TRef.of (sig := sig) (T := ⟨S_, .f32⟩) main_call2_v0).ofBuf (Val := Elt Ideal) v = v := fun _ => rfl
  have et1 : ∀ v, (TRef.of (sig := sig) (T := ⟨S_, .f32⟩) main_call2_v0).toBuf (Val := Elt Ideal) v = v := fun _ => rfl
  have eo2 : ∀ v, (TRef.of (sig := sig) (T := ⟨S100000, .f32⟩) main_call2_v1).ofBuf (Val := Elt Ideal) v = v := fun _ => rfl
  have et2 : ∀ v, (TRef.of (sig := sig) (T := ⟨S100000, .f32⟩) main_call2_v1).toBuf (Val := Elt Ideal) v = v := fun _ => rfl
  have eo3 : ∀ v, (TRef.of (sig := sig) (T := ⟨S100000, .i1⟩) main_v61).ofBuf (Val := Elt Ideal) v = v := fun _ => rfl
  have et3 : ∀ v, (TRef.of (sig := sig) (T := ⟨S100000, .i1⟩) main_v61).toBuf (Val := Elt Ideal) v = v := fun _ => rfl
  have eo4 : ∀ v, (TRef.of (sig := sig) (T := ⟨S100000, .f32⟩) main_v62).ofBuf (Val := Elt Ideal) v = v := fun _ => rfl
  have et4 : ∀ v, (TRef.of (sig := sig) (T := ⟨S100000, .f32⟩) main_v62).toBuf (Val := Elt Ideal) v = v := fun _ => rfl
  have eo5 : ∀ v, (TRef.of (sig := sig) (T := ⟨S100000, .f32⟩) main_v63).ofBuf (Val := Elt Ideal) v = v := fun _ => rfl
  have et5 : ∀ v, (TRef.of (sig := sig) (T := ⟨S100000, .f32⟩) main_v63).toBuf (Val := Elt Ideal) v = v := fun _ => rfl
  try simp only [eo0, et0, eo1, et1, eo2, et2, eo3, et3, eo4, et4, eo5, et5]
  all_goals rfl

theorem V8_arg0 (c : Dev nD) : V8 m c (Proc.devRef .tc main_arg0) = m ((c : Thread nD τ).loc main_arg0) :=
  (by unwritten opsS8 : V8 m c (Proc.devRef .tc main_arg0) = V7 m c (Proc.devRef .tc main_arg0)).trans (V7_arg0 m c)
theorem V8_arg1 (c : Dev nD) : V8 m c (Proc.devRef .tc main_arg1) = m ((c : Thread nD τ).loc main_arg1) :=
  (by unwritten opsS8 : V8 m c (Proc.devRef .tc main_arg1) = V7 m c (Proc.devRef .tc main_arg1)).trans (V7_arg1 m c)
theorem V8_arg2 (c : Dev nD) : V8 m c (Proc.devRef .tc main_arg2) = m ((c : Thread nD τ).loc main_arg2) :=
  (by unwritten opsS8 : V8 m c (Proc.devRef .tc main_arg2) = V7 m c (Proc.devRef .tc main_arg2)).trans (V7_arg2 m c)
theorem V8_arg3 (c : Dev nD) : V8 m c (Proc.devRef .tc main_arg3) = m ((c : Thread nD τ).loc main_arg3) :=
  (by unwritten opsS8 : V8 m c (Proc.devRef .tc main_arg3) = V7 m c (Proc.devRef .tc main_arg3)).trans (V7_arg3 m c)
theorem V8_arg4 (c : Dev nD) : V8 m c (Proc.devRef .tc main_arg4) = m ((c : Thread nD τ).loc main_arg4) :=
  (by unwritten opsS8 : V8 m c (Proc.devRef .tc main_arg4) = V7 m c (Proc.devRef .tc main_arg4)).trans (V7_arg4 m c)
theorem V8_arg5 (c : Dev nD) : V8 m c (Proc.devRef .tc main_arg5) = m ((c : Thread nD τ).loc main_arg5) :=
  (by unwritten opsS8 : V8 m c (Proc.devRef .tc main_arg5) = V7 m c (Proc.devRef .tc main_arg5)).trans (V7_arg5 m c)
theorem V8_v48 (c : Dev nD) : V8 m c (Proc.devRef .tc main_v48) = Cert.ReferenceIdeal.ReadP.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg5)) :=
  (by unwritten opsS8 : V8 m c (Proc.devRef .tc main_v48) = V7 m c (Proc.devRef .tc main_v48)).trans (V7_v48 m c)
theorem V8_v54 (c : Dev nD) : V8 m c (Proc.devRef .tc main_v54) = Cert.ReferenceIdeal.ReadP.val_main_v54 (F := Ideal) (m ((c : Thread nD τ).loc main_arg5)) :=
  (by unwritten opsS8 : V8 m c (Proc.devRef .tc main_v54) = V7 m c (Proc.devRef .tc main_v54)).trans (V7_v54 m c)
theorem V8_v55 (c : Dev nD) : V8 m c (Proc.devRef .tc main_v55) = Cert.ReferenceIdeal.ReadP.val_main_v55 (F := Ideal) (m ((c : Thread nD τ).loc main_arg5)) :=
  (by unwritten opsS8 : V8 m c (Proc.devRef .tc main_v55) = V7 m c (Proc.devRef .tc main_v55)).trans (V7_v55 m c)
set_option maxHeartbeats 4000000 in
theorem V8_v78 (c : Dev nD) : V8 m c (Proc.devRef .tc main_v78) = Cert.ReferenceIdeal.ReadP.val_main_v78 (F := Ideal) (m ((c : Thread nD τ).loc main_arg5)) := by
  show StableHlo.after opsS8 (V7 m c) (Proc.devRef .tc main_v78) = _
  after_results_simp
  try rw [V7_v54 m c]
  try rw [V7_v55 m c]
  try rw [V7_v63 m c]
  simp only [Cert.ReferenceIdeal.ReadP.val_main_c_13, Cert.ReferenceIdeal.ReadP.val_main_v64, Cert.ReferenceIdeal.ReadP.val_main_v65, Cert.ReferenceIdeal.ReadP.val_main_c_14, Cert.ReferenceIdeal.ReadP.val_main_v66, Cert.ReferenceIdeal.ReadP.val_main_v67, Cert.ReferenceIdeal.ReadP.val_main_v68, Cert.ReferenceIdeal.ReadP.val_main_v69, Cert.ReferenceIdeal.ReadP.val_main_v70, Cert.ReferenceIdeal.ReadP.val_main_c_15, Cert.ReferenceIdeal.ReadP.val_main_v71, Cert.ReferenceIdeal.ReadP.val_main_v72, Cert.ReferenceIdeal.ReadP.val_main_c_16, Cert.ReferenceIdeal.ReadP.val_main_v73, Cert.ReferenceIdeal.ReadP.val_main_v74, Cert.ReferenceIdeal.ReadP.val_main_v75, Cert.ReferenceIdeal.ReadP.val_main_v76, Cert.ReferenceIdeal.ReadP.val_main_v77, Cert.ReferenceIdeal.ReadP.val_main_v78]
  try generalize Cert.ReferenceIdeal.ReadP.val_main_v54 (F := Ideal) (m ((c : Thread nD τ).loc main_arg5)) = A0
  try generalize Cert.ReferenceIdeal.ReadP.val_main_v55 (F := Ideal) (m ((c : Thread nD τ).loc main_arg5)) = A1
  try generalize Cert.ReferenceIdeal.ReadP.val_main_v63 (F := Ideal) (m ((c : Thread nD τ).loc main_arg5)) = A2
  all_goals rfl

theorem V9_arg0 (c : Dev nD) : V9 m c (Proc.devRef .tc main_arg0) = m ((c : Thread nD τ).loc main_arg0) :=
  (by unwritten opsS9 : V9 m c (Proc.devRef .tc main_arg0) = V8 m c (Proc.devRef .tc main_arg0)).trans (V8_arg0 m c)
theorem V9_arg1 (c : Dev nD) : V9 m c (Proc.devRef .tc main_arg1) = m ((c : Thread nD τ).loc main_arg1) :=
  (by unwritten opsS9 : V9 m c (Proc.devRef .tc main_arg1) = V8 m c (Proc.devRef .tc main_arg1)).trans (V8_arg1 m c)
theorem V9_arg2 (c : Dev nD) : V9 m c (Proc.devRef .tc main_arg2) = m ((c : Thread nD τ).loc main_arg2) :=
  (by unwritten opsS9 : V9 m c (Proc.devRef .tc main_arg2) = V8 m c (Proc.devRef .tc main_arg2)).trans (V8_arg2 m c)
theorem V9_arg3 (c : Dev nD) : V9 m c (Proc.devRef .tc main_arg3) = m ((c : Thread nD τ).loc main_arg3) :=
  (by unwritten opsS9 : V9 m c (Proc.devRef .tc main_arg3) = V8 m c (Proc.devRef .tc main_arg3)).trans (V8_arg3 m c)
theorem V9_arg4 (c : Dev nD) : V9 m c (Proc.devRef .tc main_arg4) = m ((c : Thread nD τ).loc main_arg4) :=
  (by unwritten opsS9 : V9 m c (Proc.devRef .tc main_arg4) = V8 m c (Proc.devRef .tc main_arg4)).trans (V8_arg4 m c)
theorem V9_arg5 (c : Dev nD) : V9 m c (Proc.devRef .tc main_arg5) = m ((c : Thread nD τ).loc main_arg5) :=
  (by unwritten opsS9 : V9 m c (Proc.devRef .tc main_arg5) = V8 m c (Proc.devRef .tc main_arg5)).trans (V8_arg5 m c)
set_option maxHeartbeats 4000000 in
theorem V9_v91 (c : Dev nD) : V9 m c (Proc.devRef .tc main_v91) = Cert.ReferenceIdeal.ReadP.val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg5)) := by
  show StableHlo.after opsS9 (V8 m c) (Proc.devRef .tc main_v91) = _
  after_results_simp
  try rw [V8_v48 m c]
  try rw [V8_v54 m c]
  try rw [V8_v55 m c]
  try rw [V8_v78 m c]
  simp only [Cert.ReferenceIdeal.ReadP.val_main_c_17, Cert.ReferenceIdeal.ReadP.val_main_v79, Cert.ReferenceIdeal.ReadP.val_main_v80, Cert.ReferenceIdeal.ReadP.val_main_c_18, Cert.ReferenceIdeal.ReadP.val_main_v81, Cert.ReferenceIdeal.ReadP.val_main_v82, Cert.ReferenceIdeal.ReadP.val_main_v83, Cert.ReferenceIdeal.ReadP.val_main_v84, Cert.ReferenceIdeal.ReadP.val_main_v85, Cert.ReferenceIdeal.ReadP.val_main_v86, Cert.ReferenceIdeal.ReadP.val_main_v87, Cert.ReferenceIdeal.ReadP.val_main_v88, Cert.ReferenceIdeal.ReadP.val_main_cst_19, Cert.ReferenceIdeal.ReadP.val_main_v89, Cert.ReferenceIdeal.ReadP.val_main_v90, Cert.ReferenceIdeal.ReadP.val_main_v91]
  try generalize Cert.ReferenceIdeal.ReadP.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg5)) = A0
  try generalize Cert.ReferenceIdeal.ReadP.val_main_v54 (F := Ideal) (m ((c : Thread nD τ).loc main_arg5)) = A1
  try generalize Cert.ReferenceIdeal.ReadP.val_main_v55 (F := Ideal) (m ((c : Thread nD τ).loc main_arg5)) = A2
  try generalize Cert.ReferenceIdeal.ReadP.val_main_v78 (F := Ideal) (m ((c : Thread nD τ).loc main_arg5)) = A3
  all_goals rfl

theorem V10_arg0 (c : Dev nD) : V10 m c (Proc.devRef .tc main_arg0) = m ((c : Thread nD τ).loc main_arg0) :=
  (by unwritten opsS10 : V10 m c (Proc.devRef .tc main_arg0) = V9 m c (Proc.devRef .tc main_arg0)).trans (V9_arg0 m c)
theorem V10_arg1 (c : Dev nD) : V10 m c (Proc.devRef .tc main_arg1) = m ((c : Thread nD τ).loc main_arg1) :=
  (by unwritten opsS10 : V10 m c (Proc.devRef .tc main_arg1) = V9 m c (Proc.devRef .tc main_arg1)).trans (V9_arg1 m c)
theorem V10_arg2 (c : Dev nD) : V10 m c (Proc.devRef .tc main_arg2) = m ((c : Thread nD τ).loc main_arg2) :=
  (by unwritten opsS10 : V10 m c (Proc.devRef .tc main_arg2) = V9 m c (Proc.devRef .tc main_arg2)).trans (V9_arg2 m c)
theorem V10_arg3 (c : Dev nD) : V10 m c (Proc.devRef .tc main_arg3) = m ((c : Thread nD τ).loc main_arg3) :=
  (by unwritten opsS10 : V10 m c (Proc.devRef .tc main_arg3) = V9 m c (Proc.devRef .tc main_arg3)).trans (V9_arg3 m c)
theorem V10_arg4 (c : Dev nD) : V10 m c (Proc.devRef .tc main_arg4) = m ((c : Thread nD τ).loc main_arg4) :=
  (by unwritten opsS10 : V10 m c (Proc.devRef .tc main_arg4) = V9 m c (Proc.devRef .tc main_arg4)).trans (V9_arg4 m c)
theorem V10_arg5 (c : Dev nD) : V10 m c (Proc.devRef .tc main_arg5) = m ((c : Thread nD τ).loc main_arg5) :=
  (by unwritten opsS10 : V10 m c (Proc.devRef .tc main_arg5) = V9 m c (Proc.devRef .tc main_arg5)).trans (V9_arg5 m c)
set_option maxHeartbeats 4000000 in
theorem V10_v95 (c : Dev nD) : V10 m c (Proc.devRef .tc main_v95) = Cert.ReferenceIdeal.ReadP.val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after opsS10 (V9 m c) (Proc.devRef .tc main_v95) = _
  after_results_simp
  try rw [V9_arg4 m c]
  try rw [V9_v91 m c]
  simp only [Cert.ReferenceIdeal.ReadP.val_main_v92, Cert.ReferenceIdeal.ReadP.val_main_v93, Cert.ReferenceIdeal.ReadP.val_main_v94, Cert.ReferenceIdeal.ReadP.val_main_call3_cst, Cert.ReferenceIdeal.ReadP.val_main_call3_v0, Cert.ReferenceIdeal.ReadP.val_main_call3_cst_0, Cert.ReferenceIdeal.ReadP.val_main_call3_v1, Cert.ReferenceIdeal.ReadP.val_main_call3_v2, Cert.ReferenceIdeal.ReadP.val_main_call3_v3, Cert.ReferenceIdeal.ReadP.val_main_call3_v4, Cert.ReferenceIdeal.ReadP.val_main_call3_v5, Cert.ReferenceIdeal.ReadP.val_main_call3_v6, Cert.ReferenceIdeal.ReadP.val_main_call3_cst_1, Cert.ReferenceIdeal.ReadP.val_main_call3_v7, Cert.ReferenceIdeal.ReadP.val_main_call3_v8, Cert.ReferenceIdeal.ReadP.val_main_call3_v9, Cert.ReferenceIdeal.ReadP.val_main_call3_v10, Cert.ReferenceIdeal.ReadP.val_main_v95]
  try generalize Cert.ReferenceIdeal.ReadP.val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg5)) = A0
  have eo0 : ∀ v, (TRef.of (sig := sig) (T := ⟨S_, .f32⟩) main_call3_cst).ofBuf (Val := Elt Ideal) v = v := fun _ => rfl
  have et0 : ∀ v, (TRef.of (sig := sig) (T := ⟨S_, .f32⟩) main_call3_cst).toBuf (Val := Elt Ideal) v = v := fun _ => rfl
  have eo1 : ∀ v, (TRef.of (sig := sig) (T := ⟨S100000x2, .f32⟩) main_v94).ofBuf (Val := Elt Ideal) v = v := fun _ => rfl
  have et1 : ∀ v, (TRef.of (sig := sig) (T := ⟨S100000x2, .f32⟩) main_v94).toBuf (Val := Elt Ideal) v = v := fun _ => rfl
  have eo2 : ∀ v, (TRef.of (sig := sig) (T := ⟨S100000, .f32⟩) main_call3_v0).ofBuf (Val := Elt Ideal) v = v := fun _ => rfl
  have et2 : ∀ v, (TRef.of (sig := sig) (T := ⟨S100000, .f32⟩) main_call3_v0).toBuf (Val := Elt Ideal) v = v := fun _ => rfl
  have eo3 : ∀ v, (TRef.of (sig := sig) (T := ⟨S_, .f32⟩) main_call3_cst_0).ofBuf (Val := Elt Ideal) v = v := fun _ => rfl
  have et3 : ∀ v, (TRef.of (sig := sig) (T := ⟨S_, .f32⟩) main_call3_cst_0).toBuf (Val := Elt Ideal) v = v := fun _ => rfl
  have eo4 : ∀ v, (TRef.of (sig := sig) (T := ⟨S100000, .f32⟩) main_call3_v1).ofBuf (Val := Elt Ideal) v = v := fun _ => rfl
  have et4 : ∀ v, (TRef.of (sig := sig) (T := ⟨S100000, .f32⟩) main_call3_v1).toBuf (Val := Elt Ideal) v = v := fun _ => rfl
  have eo5 : ∀ v, (TRef.of (sig := sig) (T := ⟨S100000, .f32⟩) main_call3_v2).ofBuf (Val := Elt Ideal) v = v := fun _ => rfl
  have et5 : ∀ v, (TRef.of (sig := sig) (T := ⟨S100000, .f32⟩) main_call3_v2).toBuf (Val := Elt Ideal) v = v := fun _ => rfl
  have eo6 : ∀ v, (TRef.of (sig := sig) (T := ⟨S100000x1, .f32⟩) main_call3_v3).ofBuf (Val := Elt Ideal) v = v := fun _ => rfl
  have et6 : ∀ v, (TRef.of (sig := sig) (T := ⟨S100000x1, .f32⟩) main_call3_v3).toBuf (Val := Elt Ideal) v = v := fun _ => rfl
  have eo7 : ∀ v, (TRef.of (sig := sig) (T := ⟨S100000x2, .f32⟩) main_call3_v4).ofBuf (Val := Elt Ideal) v = v := fun _ => rfl
  have et7 : ∀ v, (TRef.of (sig := sig) (T := ⟨S100000x2, .f32⟩) main_call3_v4).toBuf (Val := Elt Ideal) v = v := fun _ => rfl
  have eo8 : ∀ v, (TRef.of (sig := sig) (T := ⟨S100000x2, .f32⟩) main_call3_v5).ofBuf (Val := Elt Ideal) v = v := fun _ => rfl
  have et8 : ∀ v, (TRef.of (sig := sig) (T := ⟨S100000x2, .f32⟩) main_call3_v5).toBuf (Val := Elt Ideal) v = v := fun _ => rfl
  have eo9 : ∀ v, (TRef.of (sig := sig) (T := ⟨S100000x2, .f32⟩) main_call3_v6).ofBuf (Val := Elt Ideal) v = v := fun _ => rfl
  have et9 : ∀ v, (TRef.of (sig := sig) (T := ⟨S100000x2, .f32⟩) main_call3_v6).toBuf (Val := Elt Ideal) v = v := fun _ => rfl
  have eo10 : ∀ v, (TRef.of (sig := sig) (T := ⟨S_, .f32⟩) main_call3_cst_1).ofBuf (Val := Elt Ideal) v = v := fun _ => rfl
  have et10 : ∀ v, (TRef.of (sig := sig) (T := ⟨S_, .f32⟩) main_call3_cst_1).toBuf (Val := Elt Ideal) v = v := fun _ => rfl
  have eo11 : ∀ v, (TRef.of (sig := sig) (T := ⟨S100000, .f32⟩) main_call3_v7).ofBuf (Val := Elt Ideal) v = v := fun _ => rfl
  have et11 : ∀ v, (TRef.of (sig := sig) (T := ⟨S100000, .f32⟩) main_call3_v7).toBuf (Val := Elt Ideal) v = v := fun _ => rfl
  have eo12 : ∀ v, (TRef.of (sig := sig) (T := ⟨S100000x1, .f32⟩) main_call3_v8).ofBuf (Val := Elt Ideal) v = v := fun _ => rfl
  have et12 : ∀ v, (TRef.of (sig := sig) (T := ⟨S100000x1, .f32⟩) main_call3_v8).toBuf (Val := Elt Ideal) v = v := fun _ => rfl
  have eo13 : ∀ v, (TRef.of (sig := sig) (T := ⟨S100000x1, .f32⟩) main_call3_v9).ofBuf (Val := Elt Ideal) v = v := fun _ => rfl
  have et13 : ∀ v, (TRef.of (sig := sig) (T := ⟨S100000x1, .f32⟩) main_call3_v9).toBuf (Val := Elt Ideal) v = v := fun _ => rfl
  have eo14 : ∀ v, (TRef.of (sig := sig) (T := ⟨S100000x2, .f32⟩) main_call3_v10).ofBuf (Val := Elt Ideal) v = v := fun _ => rfl
  have et14 : ∀ v, (TRef.of (sig := sig) (T := ⟨S100000x2, .f32⟩) main_call3_v10).toBuf (Val := Elt Ideal) v = v := fun _ => rfl
  have eo15 : ∀ v, (TRef.of (sig := sig) (T := ⟨S100000x2, .f32⟩) main_v95).ofBuf (Val := Elt Ideal) v = v := fun _ => rfl
  have et15 : ∀ v, (TRef.of (sig := sig) (T := ⟨S100000x2, .f32⟩) main_v95).toBuf (Val := Elt Ideal) v = v := fun _ => rfl
  try simp only [eo0, et0, eo1, et1, eo2, et2, eo3, et3, eo4, et4, eo5, et5, eo6, et6, eo7, et7, eo8, et8, eo9, et9, eo10, et10, eo11, et11, eo12, et12, eo13, et13, eo14, et14, eo15, et15]
  all_goals rfl

/-- The whole fold is the ten stretches' folds in a row. -/
theorem after_ops (c : Dev nD) : StableHlo.after (Cert.ReferenceIdeal.ValueP.ops (F := Ideal)) (launchContents m c) = V10 m c := by
  rw [ops_split]
  simp only [StableHlo.after_append]
  rfl

/-- Every weakly fair execution of the idealized reference terminates without a fault, with the result array at the
    last stage of the launch arrays and the argument arrays as launched. -/
theorem run (ρ : Dev nD → PrngReg) :
    θ_run defs (onTc (τ := τ) (main (F := Ideal))) ⟨m, fun _ => 0, ρ⟩ fun r => ∀ c : Dev nD,
      r.2.mem ((c.tc : Thread nD τ).loc main_v95) = Cert.ReferenceIdeal.ReadP.val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨(h c main_v95).trans ((congrFun (after_ops m c) _).trans (V10_v95 m c)),
       (h c main_arg0).trans ((congrFun (after_ops m c) _).trans (V10_arg0 m c)),
       (h c main_arg1).trans ((congrFun (after_ops m c) _).trans (V10_arg1 m c)),
       (h c main_arg2).trans ((congrFun (after_ops m c) _).trans (V10_arg2 m c)),
       (h c main_arg3).trans ((congrFun (after_ops m c) _).trans (V10_arg3 m c)),
       (h c main_arg4).trans ((congrFun (after_ops m c) _).trans (V10_arg4 m c)),
       (h c main_arg5).trans ((congrFun (after_ops m c) _).trans (V10_arg5 m c))⟩)
    (run_seq Cert.ReferenceIdeal.ValueP.scopedRefs_eq Cert.ReferenceIdeal.ValueP.scopedSems_eq defs main
      (fun _ => Cert.ReferenceIdeal.ValueP.ops) Cert.ReferenceIdeal.ValueP.main_eq (fun _ => Cert.ReferenceIdeal.ValueP.ops_sub) m ρ)

end Cert.ReferenceIdeal.RefValue

end
-- ==== Proof.lean ====
/-
  A two-layer graph convolution with a log-softmax head, on 100000 nodes with 128 features, 16 hidden units and 2
  classes, over 3200000 edges plus a self loop per node.  Each layer multiplies by a weight matrix, gathers the rows at
  the edge sources, scales them by the product of the two end points' inverse square-root degrees, scatter-adds them at
  the edge targets and adds a bias; between the layers the result is clipped below at zero, and the head takes the
  row-wise log-softmax.

  The kernel computes the three dense stages in three grid regions of ten row blocks each (the first product; bias,
  clipping and the second product; bias and log-softmax) and leaves the index lists, the normalisation and the two
  aggregations to host operations, computing the normalisation once.  The reference computes everything with host
  operations and recomputes the normalisation for its second layer.  At the ideal values (extended reals, exact
  operations, format changes the identity):
  * each region's output array is one function of the arrays it finds — the whole product `x · W₁`,
    `max(A + b₁, 0) · W₂`, and the row-wise log-softmax of `B + b₂` — because its blocks are the restrictions of that
    function to the ten row blocks, which tile the rows;
  * the reference's dense stages are the same three functions (a sum over the contracted axis; the reference's extra
    maximum with −∞ and its zero initial value of the row sum change nothing);
  * the host operations in between are the same operations on the same operands in both programs, so the aggregated
    arrays are the same terms once their operands are.
  Hence the kernel's result array is the reference's last stage of the same launch arrays.  No law used needs the
  inputs finite, so the precondition is never opened.  The ideal pass rewrote nothing, so `preserves` is trivial.
-/
import proofs.«141122_j8796093022906_1_alg».proof.Defs
import proofs.«141122_j8796093022906_1_alg».proof.Proof.Gen.Kernel
import proofs.«141122_j8796093022906_1_alg».proof.Proof.Gen.Kernel.Skeleton
import proofs.«141122_j8796093022906_1_alg».proof.Proof.Gen.Kernel.Launch
import proofs.«141122_j8796093022906_1_alg».proof.Proof.Gen.Kernel.Points
import proofs.«141122_j8796093022906_1_alg».proof.Proof.Gen.Kernel.Frame
import proofs.«141122_j8796093022906_1_alg».proof.Proof.Gen.KernelIdeal
import proofs.«141122_j8796093022906_1_alg».proof.Proof.Gen.KernelIdeal.Skeleton
import proofs.«141122_j8796093022906_1_alg».proof.Proof.Gen.KernelIdeal.Launch
import proofs.«141122_j8796093022906_1_alg».proof.Proof.Gen.KernelIdeal.Points
import proofs.«141122_j8796093022906_1_alg».proof.Proof.Gen.KernelIdeal.Frame
import proofs.«141122_j8796093022906_1_alg».proof.Proof.Gen.ReferenceIdeal
import proofs.«141122_j8796093022906_1_alg».proof.Proof.Gen.Pre_finite_inputs
import proofs.«141122_j8796093022906_1_alg».proof.Proof.Glue
import proofs.«141122_j8796093022906_1_alg».proof.Proof.RefValue
import Idealize.ShloMosaic.Adequacy
import Idealize.ShloMosaic.Init

noncomputable section

namespace Cert.Proof

open Idealize.ShloMosaic Idealize.SL.Sem

/-- The kernel as printed runs and leaves its arguments as launched. -/
theorem frame_k : Cert.frame_Kernel (hKernel := Cert.Kernel.Gen.facts) (hPre_finite_inputs := Cert.Pre_finite_inputs.Gen.facts) :=
  fun m ρ _ => Cert.Kernel.Gen.frame m ρ

/-- The idealized kernel runs and leaves its arguments as launched. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The idealized reference runs and leaves its arguments as launched: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefValue.run m ρ)

/-- From memories agreeing on the arguments both idealized programs end with the result array at the reference's last
    stage of the kernel's launch arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Glue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
